-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S8192x512 : Shape := ⟨2, ![8192, 512]⟩
abbrev S4096 : Shape := ⟨1, ![4096]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_

variable [Facts]

def fn {F : FTy → Type} [FloatOps F] (main_arg0 : FVec F S4096x512 .f32) (main_arg1 : FVec F S8192x512 .f32) (main_arg2 : IVec S4096 32) (main_arg3 : IVec S4096 32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S4096x512 : Shape := ⟨2, ![4096, 512]⟩
abbrev S8192x512 : Shape := ⟨2, ![8192, 512]⟩
abbrev S4096 : Shape := ⟨1, ![4096]⟩
abbrev S_ : Shape := ⟨0, ![]⟩
abbrev S4096x1 : Shape := ⟨2, ![4096, 1]⟩
abbrev S8192 : Shape := ⟨1, ![8192]⟩
abbrev S8192x1 : Shape := ⟨2, ![8192, 1]⟩
abbrev S8x1x1 : Shape := ⟨3, ![8, 1, 1]⟩
abbrev S512x512 : Shape := ⟨2, ![512, 512]⟩
abbrev S512x1 : Shape := ⟨2, ![512, 1]⟩
abbrev S1x1x1 : Shape := ⟨3, ![1, 1, 1]⟩
abbrev S512 : Shape := ⟨1, ![512]⟩
abbrev S1 : Shape := ⟨1, ![1]⟩
abbrev S1x1 : Shape := ⟨2, ![1, 1]⟩

abbrev nBuf : Space → Nat
  | .hbm => 53
  | .vmem => 14
  | .smem => 0
  | _ => 0

abbrev bufTy : (tb : Table) → Fin (tcTables nBuf tb) → BufTy
  | .hbm, ⟨0, _⟩ => ⟨S4096x512, .f32⟩
  | .hbm, ⟨1, _⟩ => ⟨S8192x512, .f32⟩
  | .hbm, ⟨2, _⟩ => ⟨S4096, .i32⟩
  | .hbm, ⟨3, _⟩ => ⟨S4096, .i32⟩
  | .hbm, ⟨4, _⟩ => ⟨S4096x512, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x512, .f32⟩
  | .hbm, ⟨13, _⟩ => ⟨S4096x512, .f32⟩
  | .hbm, ⟨14, _⟩ => ⟨S8192x512, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x512, .f32⟩
  | .hbm, ⟨23, _⟩ => ⟨S8192x512, .f32⟩
  | .hbm, ⟨24, _⟩ => ⟨S_, .i32⟩
  | .hbm, ⟨25, _⟩ => ⟨S4096, .i32⟩
  | .hbm, ⟨26, _⟩ => ⟨S4096, .i1⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S4096, .i32⟩
  | .hbm, ⟨31, _⟩ => ⟨S4096x1, .i32⟩
  | .hbm, ⟨32, _⟩ => ⟨S4096x512, .f32⟩
  | .hbm, ⟨33, _⟩ => ⟨S4096x512, .f32⟩
  | .hbm, ⟨34, _⟩ => ⟨S_, .f32⟩
  | .hbm, ⟨35, _⟩ => ⟨S4096, .f32⟩
  | .hbm, ⟨36, _⟩ => ⟨S_, .f32⟩
  | .hbm, ⟨37, _⟩ => ⟨S4096, .f32⟩
  | .hbm, ⟨38, _⟩ => ⟨S4096, .f32⟩
  | .hbm, ⟨39, _⟩ => ⟨S4096x512, .bf16⟩
  | .hbm, ⟨40, _⟩ => ⟨S8192x512, .bf16⟩
  | .hbm, ⟨41, _⟩ => ⟨S4096x1, .i32⟩
  | .hbm, ⟨42, _⟩ => ⟨S4096x1, .f32⟩
  | .hbm, ⟨43, _⟩ => ⟨S8x1x1, .f32⟩
  | .hbm, ⟨44, _⟩ => ⟨S8x1x1, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .i1⟩
  | .hbm, ⟨51, _⟩ => ⟨S_, .f32⟩
  | .hbm, ⟨52, _⟩ => ⟨S_, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1, .i32⟩
  | .local _ .vmem, ⟨5, _⟩ => ⟨S512x1, .i32⟩
  | .local _ .vmem, ⟨6, _⟩ => ⟨S512x1, .f32⟩
  | .local _ .vmem, ⟨7, _⟩ => ⟨S512x1, .f32⟩
  | .local _ .vmem, ⟨8, _⟩ => ⟨S1x1x1, .f32⟩
  | .local _ .vmem, ⟨9, _⟩ => ⟨S1x1x1, .f32⟩
  | .local _ .vmem, ⟨10, _⟩ => ⟨S1x1x1, .f32⟩
  | .local _ .vmem, ⟨11, _⟩ => ⟨S1x1x1, .f32⟩
  | .local _ .vmem, ⟨12, _⟩ => ⟨S1x1x1, .f32⟩
  | .local _ .vmem, ⟨13, _⟩ => ⟨S1x1x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31_0 : Ref sig .tc := ⟨.hbm, 43, rfl⟩
abbrev main_v31_1 : Ref sig .tc := ⟨.hbm, 44, rfl⟩
abbrev main_cst_6 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v64 : BitVec 1 := Scalar.cmpi .eq arg1 c15_i32
  let v65 : BitVec 32 := Scalar.extui v64
  let c0_i32_29 : BitVec 32 := 0#32
  let v66 : BitVec 1 := Scalar.cmpi .ne v65 c0_i32_29
  v66

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  reducesTo_S8192x512_S8192_d1 : S8192x512.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bcast_S_S4096 : S_.BroadcastsInDim S4096 (![] : Fin 0 → Fin S4096.rank)
  bitsLt_bf16_f32 : FTy.bits .bf16 < FTy.bits .f32
  shapeCasts_S4096_S4096x1 : S4096.ShapeCasts S4096x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  transposes_S512x512_p1_0_S512x512 : S512x512.Transposes [1, 0] S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x512 : S512x1.Broadcasts S512x512
  iota_S512x512_d1_w32 : S512x512.Iotas .tc 32 [1]
  reduces_S512x512_S512 : S512x512.Reduces [1] S512
  shapeCasts_S512_S512x1 : S512.ShapeCasts S512x1
  reduces_S512x1_S1 : S512x1.Reduces [0] S1
  shapeCasts_S1_S1x1 : S1.ShapeCasts S1x1
  natLt_1_32 : 1 < 32
  shapeCasts_S1x1_S1x1x1 : S1x1.ShapeCasts S1x1x1
  reducesTo_S8x1x1_S_d0_1_2 : S8x1x1.ReducesTo [0, 1, 2] S_
  gather_S8192x512_S4096x1_S4096x512_1_0_n_n_0_1_1512_wf : GatherDims.WF S8192x512 S4096x1 S4096x512 [1] [0] [] [0] [] 1 ![1, 512]
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .bf16 = 32 ∨ (Rect.block (s := S4096x512) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x512.size a
  hwx0_1 : ∀ i : grid0.Coords, EltTy.bits .bf16 = 32 ∨ (Rect.block (s := S8192x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .i32 = 32 ∨ (Rect.block (s := S4096x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S8x1x1.size a
  hwx0_4 : ∀ i : grid0.Coords, EltTy.bits .f32 = 32 ∨ (Rect.block (s := S8x1x1) S1x1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S8x1x1.size a
  hwx0_5 : ∀ i : grid0.Coords, EltTy.bits .f32 = 32 ∨ (Rect.block (s := S8x1x1) S1x1x1.size (cc0_transform_5 i) (hinb0_5 i)).WholeWords (EltTy.packing .f32)

variable [Facts₀]

def gather_S8192x512_S4096x1_S4096x512_1_0_n_n_0_1_1512 : GatherDims S8192x512 S4096x1 S4096x512 where
  offsetDims := [1]
  collapsedSliceDims := [0]
  operandBatchingDims := []
  startIndicesBatchingDims := []
  startIndexMap := [0]
  indexVectorDim := 1
  sliceSizes := ![1, 512]
  wf := gather_S8192x512_S4096x1_S4096x512_1_0_n_n_0_1_1512_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_v27) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v30) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v31_0) S1x1x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v31_1) S1x1x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4096x512 : Shape := ⟨2, ![4096, 512]⟩
abbrev S8192x512 : Shape := ⟨2, ![8192, 512]⟩
abbrev S4096 : Shape := ⟨1, ![4096]⟩
abbrev S_ : Shape := ⟨0, ![]⟩
abbrev S4096x1 : Shape := ⟨2, ![4096, 1]⟩
abbrev S8192 : Shape := ⟨1, ![8192]⟩
abbrev S8192x1 : Shape := ⟨2, ![8192, 1]⟩
abbrev S1x8192 : Shape := ⟨2, ![1, 8192]⟩
abbrev S4096x8192 : Shape := ⟨2, ![4096, 8192]⟩
abbrev S512x8192 : Shape := ⟨2, ![512, 8192]⟩

abbrev nBuf : Space → Nat
  | .hbm => 85
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S8192x512, .f32⟩
  | .hbm, ⟨2, _⟩ => ⟨S4096, .i32⟩
  | .hbm, ⟨3, _⟩ => ⟨S4096, .i32⟩
  | .hbm, ⟨4, _⟩ => ⟨S4096x512, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x512, .f32⟩
  | .hbm, ⟨13, _⟩ => ⟨S4096x512, .f32⟩
  | .hbm, ⟨14, _⟩ => ⟨S8192x512, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x512, .f32⟩
  | .hbm, ⟨23, _⟩ => ⟨S8192x512, .f32⟩
  | .hbm, ⟨24, _⟩ => ⟨S_, .i32⟩
  | .hbm, ⟨25, _⟩ => ⟨S4096, .i32⟩
  | .hbm, ⟨26, _⟩ => ⟨S4096, .i1⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S4096, .i32⟩
  | .hbm, ⟨31, _⟩ => ⟨S4096x1, .i32⟩
  | .hbm, ⟨32, _⟩ => ⟨S4096x512, .f32⟩
  | .hbm, ⟨33, _⟩ => ⟨S4096x1, .i32⟩
  | .hbm, ⟨34, _⟩ => ⟨S8192, .i32⟩
  | .hbm, ⟨35, _⟩ => ⟨S1x8192, .i32⟩
  | .hbm, ⟨36, _⟩ => ⟨S4096x8192, .i32⟩
  | .hbm, ⟨37, _⟩ => ⟨S4096x8192, .i32⟩
  | .hbm, ⟨38, _⟩ => ⟨S4096x8192, .i1⟩
  | .hbm, ⟨39, _⟩ => ⟨S4096x512, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S512x8192, .f32⟩
  | .hbm, ⟨46, _⟩ => ⟨S4096x8192, .f32⟩
  | .hbm, ⟨47, _⟩ => ⟨S_, .f32⟩
  | .hbm, ⟨48, _⟩ => ⟨S4096x8192, .f32⟩
  | .hbm, ⟨49, _⟩ => ⟨S4096x8192, .f32⟩
  | .hbm, ⟨50, _⟩ => ⟨S4096x1, .f32⟩
  | .hbm, ⟨51, _⟩ => ⟨S4096x8192, .f32⟩
  | .hbm, ⟨52, _⟩ => ⟨S4096x8192, .f32⟩
  | .hbm, ⟨53, _⟩ => ⟨S_, .f32⟩
  | .hbm, ⟨54, _⟩ => ⟨S4096x8192, .f32⟩
  | .hbm, ⟨55, _⟩ => ⟨S4096x8192, .f32⟩
  | .hbm, ⟨56, _⟩ => ⟨S4096x8192, .f32⟩
  | .hbm, ⟨57, _⟩ => ⟨S4096x8192, .f32⟩
  | .hbm, ⟨58, _⟩ => ⟨S4096x8192, .i1⟩
  | .hbm, ⟨59, _⟩ => ⟨S4096x8192, .f32⟩
  | .hbm, ⟨60, _⟩ => ⟨S4096x8192, .f32⟩
  | .hbm, ⟨61, _⟩ => ⟨S4096x8192, .f32⟩
  | .hbm, ⟨62, _⟩ => ⟨S4096x8192, .f32⟩
  | .hbm, ⟨63, _⟩ => ⟨S4096x8192, .f32⟩
  | .hbm, ⟨64, _⟩ => ⟨S4096x8192, .f32⟩
  | .hbm, ⟨65, _⟩ => ⟨S4096x8192, .f32⟩
  | .hbm, ⟨66, _⟩ => ⟨S4096x8192, .f32⟩
  | .hbm, ⟨67, _⟩ => ⟨S_, .f32⟩
  | .hbm, ⟨68, _⟩ => ⟨S4096x8192, .f32⟩
  | .hbm, ⟨69, _⟩ => ⟨S4096x8192, .i1⟩
  | .hbm, ⟨70, _⟩ => ⟨S4096x8192, .i1⟩
  | .hbm, ⟨71, _⟩ => ⟨S_, .f32⟩
  | .hbm, ⟨72, _⟩ => ⟨S_, .f32⟩
  | .hbm, ⟨73, _⟩ => ⟨S4096x8192, .f32⟩
  | .hbm, ⟨74, _⟩ => ⟨S4096x8192, .f32⟩
  | .hbm, ⟨75, _⟩ => ⟨S4096x8192, .i32⟩
  | .hbm, ⟨76, _⟩ => ⟨S_, .i32⟩
  | .hbm, ⟨77, _⟩ => ⟨S_, .i32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .i1⟩
  | .hbm, ⟨83, _⟩ => ⟨S_, .f32⟩
  | .hbm, ⟨84, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_call0_cst : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_v5 : Ref sig .tc := ⟨.hbm, 59, rfl⟩
abbrev main_call0_v6 : Ref sig .tc := ⟨.hbm, 60, rfl⟩
abbrev main_call0_v7 : Ref sig .tc := ⟨.hbm, 61, rfl⟩
abbrev main_call0_v8 : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_v40 : Ref sig .tc := ⟨.hbm, 66, rfl⟩
abbrev main_cst_7 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_8 : Ref sig .tc := ⟨.hbm, 71, rfl⟩
abbrev main_call1_v0 : Ref sig .tc := ⟨.hbm, 72, rfl⟩
abbrev main_call1_v1 : Ref sig .tc := ⟨.hbm, 73, rfl⟩
abbrev main_v44 : Ref sig .tc := ⟨.hbm, 74, rfl⟩
abbrev main_v45 : Ref sig .tc := ⟨.hbm, 75, rfl⟩
abbrev main_c_9 : Ref sig .tc := ⟨.hbm, 76, rfl⟩
abbrev main_v46 : Ref sig .tc := ⟨.hbm, 77, rfl⟩
abbrev main_v47 : Ref sig .tc := ⟨.hbm, 78, rfl⟩
abbrev main_cst_10 : Ref sig .tc := ⟨.hbm, 79, rfl⟩
abbrev main_v48 : Ref sig .tc := ⟨.hbm, 80, rfl⟩
abbrev main_cst_11 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  reducesTo_S8192x512_S8192_d1 : S8192x512.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bcast_S_S4096 : S_.BroadcastsInDim S4096 (![] : Fin 0 → Fin S4096.rank)
  bcast_S8192_S1x8192_1 : S8192.BroadcastsInDim S1x8192 (![1] : Fin 1 → Fin S1x8192.rank)
  bcast_S4096x1_S4096x8192_0_1 : S4096x1.BroadcastsInDim S4096x8192 (![0, 1] : Fin 2 → Fin S4096x8192.rank)
  bcast_S1x8192_S4096x8192_0_1 : S1x8192.BroadcastsInDim S4096x8192 (![0, 1] : Fin 2 → Fin S4096x8192.rank)
  transposes_S8192x512_S512x8192_1_0 : S8192x512.Transposes [1, 0] S512x8192
  bcast_S_S4096x8192 : S_.BroadcastsInDim S4096x8192 (![] : Fin 0 → Fin S4096x8192.rank)
  natLt_1_32 : 1 < 32
  reducesTo_S4096x8192_S_d0_1 : S4096x8192.ReducesTo [0, 1] S_
  gather_S8192x512_S4096x1_S4096x512_1_0_n_n_0_1_1512_wf : GatherDims.WF S8192x512 S4096x1 S4096x512 [1] [0] [] [0] [] 1 ![1, 512]
  dot_S4096x512_S512x8192_S4096x8192_1_0_0_1_n_n_wf : DotDims.WF S4096x512 S512x8192 S4096x8192 [1] [0] [0] [1] [] []

variable [Facts₀]

def gather_S8192x512_S4096x1_S4096x512_1_0_n_n_0_1_1512 : GatherDims S8192x512 S4096x1 S4096x512 where
  offsetDims := [1]
  collapsedSliceDims := [0]
  operandBatchingDims := []
  startIndicesBatchingDims := []
  startIndexMap := [0]
  indexVectorDim := 1
  sliceSizes := ![1, 512]
  wf := gather_S8192x512_S4096x1_S4096x512_1_0_n_n_0_1_1512_wf
def dot_S4096x512_S512x8192_S4096x8192_1_0_0_1_n_n : DotDims S4096x512 S512x8192 S4096x8192 where
  lhsContracting := [1]
  rhsContracting := [0]
  lhsNonContracting := [0]
  rhsNonContracting := [1]
  lhsBatch := []
  rhsBatch := []
  wf := dot_S4096x512_S512x8192_S4096x8192_1_0_0_1_n_n_wf

class Facts : Prop extends Facts₀ where

variable [Facts]
-- ==== Proof.Pieces.lean ====
/-
  What one grid point leaves in the two running totals.

  The body keeps two one-element accumulators across the column tiles of a row tile: the sum of the masked losses and
  the number of entries that count. At every point it adds the tile's total to what the accumulator held; at the first
  column tile it stores zero first, and at the last one it also copies both accumulators into the two outputs. So
  each of the three control cases leaves, in an accumulator that held `xs`, the same function of `xs` and of the four
  input blocks (`accLoss`, `accCount`), with `xs` the stored zero in the first case; and the outputs of the last case
  are the accumulators. The lemmas below read that off the pieces the body's run found, for any float values.
-/
import proofs.«131508_j2422361555241_1_alg».proof.Proof.Gen.KernelIdeal.Frame
import Idealize.ShloMosaic.Lib.Pipeline.Value
import Idealize.ShloMosaic.Lib.Tactic

set_option maxRecDepth 16384

noncomputable section

namespace Cert.KernelIdeal.Tile

open Cert.KernelIdeal Cert.KernelIdeal.Gen
open Idealize.ShloMosaic Idealize.ShloMosaic.TcCoe Idealize.ShloMosaic.Tactic Idealize.SL.Sem

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The loss accumulator after a point: what it held plus the total of the tile's masked losses. -/
def accLoss (i : grid0.Coords) (x0 : Vec F S512x512 .bf16) (x1 : Vec F S512x512 .bf16) (x2 : Vec F S512x1 .i32) (x3 : Vec F S512x1 .f32) (xs : Vec F S1x1x1 .f32) : Vec F S1x1x1 .f32 :=
  k0_pay1 (k0_pay5 x0 x1 x3) (k0_pay6 i x0 x1 x3 x2) (FloatOps.ofBits .f32 0x00000000#32) xs

/-- The count accumulator after a point: what it held plus the number of the tile's entries that count. -/
def accCount (i : grid0.Coords) (x0 : Vec F S512x512 .bf16) (x1 : Vec F S512x512 .bf16) (x2 : Vec F S512x1 .i32) (x3 : Vec F S512x1 .f32) (xs : Vec F S1x1x1 .f32) : Vec F S1x1x1 .f32 :=
  k0_pay2 (k0_pay6 i x0 x1 x3 x2) xs

/-! ## A middle column tile -/

theorem loss_B (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1 .i32) (harg4 : arg4.IsWhole) (arg5 : Memref sig .tc .vmem S512x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond0_0 i) (hc1 : ¬cond0_1 i) (x0 : Vec F S512x512 .bf16) (x1 : Vec F S512x512 .bf16) (x2 : Vec F S512x1 .i32) (x3 : Vec F S512x1 .f32) (xs0 : Vec F S1x1x1 .f32) (xs1 : Vec F S1x1x1 .f32) :
    sout0_B_0 c i arg2 harg2 arg3 harg3 arg4 harg4 arg5 harg5 arg6 harg6 arg7 harg7 arg8 harg8 arg9 harg9 hc0 hc1 x0 x1 x2 x3 xs0 xs1 = accLoss i x0 x1 x2 x3 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero hz3]
  simp only [View.readAt_eq_ld, harg2.read_unread, harg3.read_unread, harg4.read_unread, harg5.read_unread, harg8.read_unread, harg9.read_unread,
    View.ld_unit_zero (S := S512x512) hz2, View.ld_unit_zero (S := S512x1) hz2, View.ld_unit_zero (S := S1x1x1) hz3]
  rfl

theorem count_B (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1 .i32) (harg4 : arg4.IsWhole) (arg5 : Memref sig .tc .vmem S512x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond0_0 i) (hc1 : ¬cond0_1 i) (x0 : Vec F S512x512 .bf16) (x1 : Vec F S512x512 .bf16) (x2 : Vec F S512x1 .i32) (x3 : Vec F S512x1 .f32) (xs0 : Vec F S1x1x1 .f32) (xs1 : Vec F S1x1x1 .f32) :
    sout0_B_1 c i arg2 harg2 arg3 harg3 arg4 harg4 arg5 harg5 arg6 harg6 arg7 harg7 arg8 harg8 arg9 harg9 hc0 hc1 x0 x1 x2 x3 xs0 xs1 = accCount i x0 x1 x2 x3 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero hz3]
  simp only [View.readAt_eq_ld, harg2.read_unread, harg3.read_unread, harg4.read_unread, harg5.read_unread, harg8.read_unread, harg9.read_unread,
    View.ld_unit_zero (S := S512x512) hz2, View.ld_unit_zero (S := S512x1) hz2, View.ld_unit_zero (S := S1x1x1) hz3]
  rfl

/-! ## The last column tile: the same accumulators, and the outputs are copies of them -/

theorem loss_C (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1 .i32) (harg4 : arg4.IsWhole) (arg5 : Memref sig .tc .vmem S512x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond0_0 i) (hc1 : cond0_1 i) (x0 : Vec F S512x512 .bf16) (x1 : Vec F S512x512 .bf16) (x2 : Vec F S512x1 .i32) (x3 : Vec F S512x1 .f32) (xs0 : Vec F S1x1x1 .f32) (xs1 : Vec F S1x1x1 .f32) :
    sout0_C_0 c i arg2 harg2 arg3 harg3 arg4 harg4 arg5 harg5 arg6 harg6 arg7 harg7 arg8 harg8 arg9 harg9 hc0 hc1 x0 x1 x2 x3 xs0 xs1 = accLoss i x0 x1 x2 x3 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz3]
  simp only [View.readAt_eq_ld, harg2.read_unread, harg3.read_unread, harg4.read_unread, harg5.read_unread, harg8.read_unread, harg9.read_unread,
    View.ld_unit_zero (S := S512x512) hz2, View.ld_unit_zero (S := S512x1) hz2, View.ld_unit_zero (S := S1x1x1) hz3]
  rfl

theorem count_C (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1 .i32) (harg4 : arg4.IsWhole) (arg5 : Memref sig .tc .vmem S512x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond0_0 i) (hc1 : cond0_1 i) (x0 : Vec F S512x512 .bf16) (x1 : Vec F S512x512 .bf16) (x2 : Vec F S512x1 .i32) (x3 : Vec F S512x1 .f32) (xs0 : Vec F S1x1x1 .f32) (xs1 : Vec F S1x1x1 .f32) :
    sout0_C_1 c i arg2 harg2 arg3 harg3 arg4 harg4 arg5 harg5 arg6 harg6 arg7 harg7 arg8 harg8 arg9 harg9 hc0 hc1 x0 x1 x2 x3 xs0 xs1 = accCount i x0 x1 x2 x3 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz3]
  simp only [View.readAt_eq_ld, harg2.read_unread, harg3.read_unread, harg4.read_unread, harg5.read_unread, harg8.read_unread, harg9.read_unread,
    View.ld_unit_zero (S := S512x512) hz2, View.ld_unit_zero (S := S512x1) hz2, View.ld_unit_zero (S := S1x1x1) hz3]
  rfl

theorem lossOut_C (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1 .i32) (harg4 : arg4.IsWhole) (arg5 : Memref sig .tc .vmem S512x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond0_0 i) (hc1 : cond0_1 i) (x0 : Vec F S512x512 .bf16) (x1 : Vec F S512x512 .bf16) (x2 : Vec F S512x1 .i32) (x3 : Vec F S512x1 .f32) (xs0 : Vec F S1x1x1 .f32) (xs1 : Vec F S1x1x1 .f32) :
    out0_C_4 c i arg2 harg2 arg3 harg3 arg4 harg4 arg5 harg5 arg6 harg6 arg7 harg7 arg8 harg8 arg9 harg9 hc0 hc1 x0 x1 x2 x3 xs0 xs1 = accLoss i x0 x1 x2 x3 xs0 := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz3, View.readCov_unit_zero (S := S1x1x1) _ hz3]
  simp only [View.readAt_eq_ld, harg2.read_unread, harg3.read_unread, harg4.read_unread, harg5.read_unread, harg8.read_unread, harg9.read_unread,
    View.ld_unit_zero (S := S512x512) hz2, View.ld_unit_zero (S := S512x1) hz2, View.ld_unit_zero (S := S1x1x1) hz3]
  rfl

theorem countOut_C (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1 .i32) (harg4 : arg4.IsWhole) (arg5 : Memref sig .tc .vmem S512x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond0_0 i) (hc1 : cond0_1 i) (x0 : Vec F S512x512 .bf16) (x1 : Vec F S512x512 .bf16) (x2 : Vec F S512x1 .i32) (x3 : Vec F S512x1 .f32) (xs0 : Vec F S1x1x1 .f32) (xs1 : Vec F S1x1x1 .f32) :
    out0_C_5 c i arg2 harg2 arg3 harg3 arg4 harg4 arg5 harg5 arg6 harg6 arg7 harg7 arg8 harg8 arg9 harg9 hc0 hc1 x0 x1 x2 x3 xs0 xs1 = accCount i x0 x1 x2 x3 xs1 := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz3, View.readCov_unit_zero (S := S1x1x1) _ hz3]
  simp only [View.readAt_eq_ld, harg2.read_unread, harg3.read_unread, harg4.read_unread, harg5.read_unread, harg8.read_unread, harg9.read_unread,
    View.ld_unit_zero (S := S512x512) hz2, View.ld_unit_zero (S := S512x1) hz2, View.ld_unit_zero (S := S1x1x1) hz3]
  rfl

/-! ## The first column tile: the accumulators start from the stored zero -/

theorem loss_A (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1 .i32) (harg4 : arg4.IsWhole) (arg5 : Memref sig .tc .vmem S512x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (hc0 : cond0_0 i) (hc1 : ¬cond0_1 i) (x0 : Vec F S512x512 .bf16) (x1 : Vec F S512x512 .bf16) (x2 : Vec F S512x1 .i32) (x3 : Vec F S512x1 .f32) :
    sout0_A_0 c i arg2 harg2 arg3 harg3 arg4 harg4 arg5 harg5 arg6 harg6 arg7 harg7 arg8 harg8 arg9 harg9 hc0 hc1 x0 x1 x2 x3 = accLoss i x0 x1 x2 x3 (k0_pay3 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, harg4.read_unread, harg5.read_unread, harg8.read_unread, harg9.read_unread,
    View.ld_unit_zero (S := S512x512) hz2, View.ld_unit_zero (S := S512x1) hz2, View.ld_unit_zero (S := S1x1x1) hz3]
  rfl

theorem count_A (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1 .i32) (harg4 : arg4.IsWhole) (arg5 : Memref sig .tc .vmem S512x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (hc0 : cond0_0 i) (hc1 : ¬cond0_1 i) (x0 : Vec F S512x512 .bf16) (x1 : Vec F S512x512 .bf16) (x2 : Vec F S512x1 .i32) (x3 : Vec F S512x1 .f32) :
    sout0_A_1 c i arg2 harg2 arg3 harg3 arg4 harg4 arg5 harg5 arg6 harg6 arg7 harg7 arg8 harg8 arg9 harg9 hc0 hc1 x0 x1 x2 x3 = accCount i x0 x1 x2 x3 (k0_pay4 (F := F)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, harg4.read_unread, harg5.read_unread, harg8.read_unread, harg9.read_unread,
    View.ld_unit_zero (S := S512x512) hz2, View.ld_unit_zero (S := S512x1) hz2, View.ld_unit_zero (S := S1x1x1) hz3]
  rfl

end Cert.KernelIdeal.Tile

end
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.Spec.lean ====
/-
  The one-element function both programs apply to a score x: the softplus of x, written
  max(x, 0) + log(1 + exp(-|x|)), behind a guard that asks whether x - 0 differs from itself. On the extended reals
  nothing differs from itself, so the guard never fires; the two programs spell the negation of |x| differently
  (the reference negates, the kernel subtracts from zero), and those are one value.
-/
import Idealize.ShloMosaic.PureOps.Ideal.Laws
import Idealize.ShloMosaic.Lib.ValueIdx

noncomputable section

namespace Cert.PushLoss

open Idealize.ShloMosaic

/-- The extended real the all-zero f32 word denotes (it is 0). -/
abbrev z32 : EReal := Ideal.ofBits .f32 0x00000000#32

/-- The extended real the f32 word of 1.0 denotes. -/
abbrev one32 : EReal := Ideal.ofBits .f32 0x3F800000#32

theorem z32_eq : z32 = 0 := Ideal.ofBits_zero_f32

/-- Softplus as the reference spells it: |d| negated, d = x - 0. -/
def softplusR (x : EReal) : EReal :=
  Scalar.select (Ideal.cmp .une (x - z32) (x - z32)) (x + z32)
    (max x z32 + Ideal.log1p (Ideal.exp (-(max (x - z32) (-(x - z32))))))

/-- Softplus as the kernel spells it: |d| subtracted from zero. -/
def softplusK (x : EReal) : EReal :=
  Scalar.select (Ideal.cmp .one (x - z32) (x - z32)) (x + z32)
    (max x z32 + Ideal.log1p (Ideal.exp (z32 - max (x - z32) (-(x - z32)))))

/-- Zero minus a is minus a, so the two spellings are one function. -/
theorem softplusK_eq (x : EReal) : softplusK x = softplusR x := by
  unfold softplusK softplusR
  rw [show z32 - max (x - z32) (-(x - z32)) = -(max (x - z32) (-(x - z32))) from by rw [z32_eq, zero_sub]]
  rfl

/-- One entry of the masked loss matrix: the softplus where the label differs from the column and the softplus is
    positive, zero elsewhere. -/
def entry (lbl col : BitVec 32) (x : EReal) : EReal :=
  Scalar.select (IntOp.andi (IntOp.cmpi .ne lbl col) (Ideal.cmp .ogt (softplusR x) z32)) (softplusR x) z32

/-- … and whether that entry counts. -/
def counts (lbl col : BitVec 32) (x : EReal) : BitVec 1 :=
  IntOp.andi (IntOp.cmpi .ne lbl col) (Ideal.cmp .ogt (softplusR x) z32)

/-- The result both programs end with: the total over the count where the count is positive, the total otherwise. -/
def answer (total count : EReal) : EReal :=
  Scalar.select (Ideal.cmp .ogt count z32) (Ideal.div total count) total

end Cert.PushLoss

end
-- ==== Proof.Elem.lean ====
/-
  The tile's two payloads read at one entry (r, c), on the extended reals.

  The score is the row's positive distance minus (one minus the inner product of feature row r with centre row c); the
  loss payload is the softplus of the score; the mask payload asks that the row's label differ from the column's
  global number — the column tile's base (its number times 512) plus c — and that the softplus be positive.
-/
import proofs.«131508_j2422361555241_1_alg».proof.Proof.Pieces
import proofs.«131508_j2422361555241_1_alg».proof.Proof.LibRowOps
import proofs.«131508_j2422361555241_1_alg».proof.Proof.Spec

set_option maxRecDepth 16384

noncomputable section

namespace Cert.KernelIdeal.Tile

open Cert.KernelIdeal Cert.KernelIdeal.Gen
open Idealize.ShloMosaic Idealize.ShloMosaic.ValueIdx Idealize.ShloMosaic.TcCoe
open Cert.PushLoss
open scoped BigOperators

/-- The inner product of feature row r and centre row c of the two blocks: the body's matrix product against the
    transposed centre block, into a zero accumulator. -/
theorem scores_at (x0 x1 : FVec Ideal S512x512 .bf16) (r c : Fin 512) :
    matmul (F := Ideal) dot_S512x512_S512x512_S512x512_1_0_0_1_n_n none
        (shapeCast S512x512 x0 shapeCasts_S512x512_S512x512)
        (transpose S512x512 [1, 0] (shapeCast S512x512 x1 shapeCasts_S512x512_S512x512) transposes_S512x512_p1_0_S512x512)
        (constant S512x512 .f32 0x00000000#32) (ix2 r c)
      = ∑ k : Fin 512, x0 (ix2 r k) * x1 (ix2 c k) := by
  refine (Cert.RowOps.matmul_zero_apply (d := dot_S512x512_S512x512_S512x512_1_0_0_1_n_n) ⟨rfl, rfl, rfl, rfl, rfl, rfl⟩ none _ _ r c).trans ?_
  refine Finset.sum_congr rfl fun k _ => ?_
  rw [shapeCast_self, Cert.RowOps.swap_apply, shapeCast_self]

/-- The row's positive distance, repeated along the columns. -/
theorem pos_at (x3 : FVec Ideal S512x1 .f32) (r c : Fin 512) :
    broadcastTo S512x512 (shapeCast S512x1 x3 shapeCasts_S512x1_S512x1) broadcasts_S512x1_S512x512 (ix2 r c)
      = x3 (ix2 r (0 : Fin 1)) := by
  rw [Cert.RowOps.spread_apply, shapeCast_self]

/-- The loss payload at (r, c): the softplus of the score. -/
theorem pay5_at (x0 x1 : FVec Ideal S512x512 .bf16) (x3 : FVec Ideal S512x1 .f32) (r c : Fin 512) :
    k0_pay5 (F := Ideal) x0 x1 x3 (ix2 r c)
      = softplusK (x3 (ix2 r (0 : Fin 1)) - (one32 - ∑ k : Fin 512, x0 (ix2 r k) * x1 (ix2 c k))) := by
  unfold k0_pay5
  exact congrArg softplusK (congrArg₂ (· - ·) (pos_at x3 r c) (congrArg (one32 - ·) (scores_at x0 x1 r c)))

/-- The row's label, repeated along the columns. -/
theorem lbl_at (x2 : IVec S512x1 32) (r c : Fin 512) :
    broadcastTo S512x512 (shapeCast S512x1 x2 shapeCasts_S512x1_S512x1) broadcasts_S512x1_S512x512 (ix2 r c)
      = x2 (ix2 r (0 : Fin 1)) := by
  rw [Cert.RowOps.spread_apply, shapeCast_self]

/-- The column counter of a tile reads its second coordinate. -/
theorem iota_at (r c : Fin 512) :
    iota .tc S512x512 32 [1] iota_S512x512_d1_w32 (ix2 r c) = BitVec.ofNat 32 c.val :=
  iota_single_apply .tc S512x512 32 1 iota_S512x512_d1_w32 (ix2 r c)

/-- The mask payload at (r, c). -/
theorem pay6_at (i : grid0.Coords) (x0 x1 : FVec Ideal S512x512 .bf16) (x3 : FVec Ideal S512x1 .f32)
    (x2 : IVec S512x1 32) (r c : Fin 512) :
    k0_pay6 (F := Ideal) i x0 x1 x3 x2 (ix2 r c)
      = IntOp.andi
          (IntOp.cmpi .ne (x2 (ix2 r (0 : Fin 1)))
            (IntOp.addi (Scalar.muli (BitVec.ofNat 32 (i 1).val) 512#32) (BitVec.ofNat 32 c.val)))
          (Ideal.cmp .ogt (k0_pay5 (F := Ideal) x0 x1 x3 (ix2 r c)) z32) := by
  unfold k0_pay6
  exact congrArg₂ IntOp.andi
    (congrArg₂ (IntOp.cmpi .ne) (lbl_at x2 r c) (congrArg (IntOp.addi (Scalar.muli (BitVec.ofNat 32 (i 1).val) 512#32)) (iota_at r c)))
    rfl

end Cert.KernelIdeal.Tile

end
-- ==== Proof.Blocks.lean ====
/-
  The four input blocks of a grid point, entry by entry.

  Before the region the kernel's host lines normalise the rows of the features and of the centres, gather each row's own
  centre and take one minus the inner product with it: the same operations, in the same order, as the reference's first
  lines, so the arrays the region finds are the reference's own stages of the argument arrays (the change of float format
  in between is the identity on the extended reals, and the two reshapes to a column keep the entries). Point t reads
  feature rows 512·(t/16) + r, centre rows 512·(t%16) + c, and the labels and positive distances of those feature rows.
-/
import proofs.«131508_j2422361555241_1_alg».proof.Proof.Pieces
import proofs.«131508_j2422361555241_1_alg».proof.Proof.LibRowOps
import proofs.«131508_j2422361555241_1_alg».proof.Proof.RefRead
import Idealize.ShloMosaic.Lib.StableHlo.Run

set_option maxRecDepth 16384

noncomputable section

namespace Cert.KernelIdeal.Tile

open Cert.KernelIdeal Cert.KernelIdeal.Gen
open Idealize.ShloMosaic Idealize.ShloMosaic.ValueIdx Idealize.ShloMosaic.TcCoe Idealize.SL.Sem Idealize.ShloMosaic.StableHlo

variable (m : (ℓ : Loc nD τ sig) → Buf (Elt Ideal) ℓ)

/-- The global row of local row r at grid point n, and the global column of local column c. -/
abbrev rowOf (n : ℕ) (r : Fin 512) : Fin 4096 := ⟨(512 * (n / 16) + r.val) % 4096, Nat.mod_lt _ (by norm_num)⟩
abbrev colOf (n : ℕ) (c : Fin 512) : Fin 8192 := ⟨(512 * (n % 16) + c.val) % 8192, Nat.mod_lt _ (by norm_num)⟩

/-- The three argument arrays the values depend on. -/
abbrev A0 (c : Dev nD) : (⟨Cert.ReferenceIdeal.S4096x512, .f32⟩ : BufTy).Contents (Elt Ideal) := m ((c : Thread nD τ).loc main_arg0)
abbrev A1 (c : Dev nD) : (⟨Cert.ReferenceIdeal.S8192x512, .f32⟩ : BufTy).Contents (Elt Ideal) := m ((c : Thread nD τ).loc main_arg1)
abbrev A2 (c : Dev nD) : (⟨Cert.ReferenceIdeal.S4096, .i32⟩ : BufTy).Contents (Elt Ideal) := m ((c : Thread nD τ).loc main_arg2)

/-! ## The arrays the region finds -/

/-- The normalised features. -/
theorem V_feat (c : Dev nD) : V m c main_v27
    = (truncf (F := Ideal) .bf16 (Cert.ReferenceIdeal.ReadP.val_main_v7 (F := Ideal) (A0 m c)) bitsLt_bf16_f32 : S4096x512.Idx → EReal) := by
  show StableHlo.after hostOps0 (fun b => m (c, b)) (Proc.devRef .tc main_v27) = _
  after_results_simp <;> rfl

/-- The normalised centres. -/
theorem V_cent (c : Dev nD) : V m c main_v28
    = (truncf (F := Ideal) .bf16 (Cert.ReferenceIdeal.ReadP.val_main_v15 (F := Ideal) (A1 m c)) bitsLt_bf16_f32 : S8192x512.Idx → EReal) := by
  show StableHlo.after hostOps0 (fun b => m (c, b)) (Proc.devRef .tc main_v28) = _
  after_results_simp <;> rfl

/-- The labels as a column. -/
theorem V_lbl (c : Dev nD) : (V m c main_v29 : S4096x1.Idx → BitVec 32)
    = shapeCast S4096x1 (A2 m c) shapeCasts_S4096_S4096x1 := by
  show StableHlo.after hostOps0 (fun b => m (c, b)) (Proc.devRef .tc main_v29) = _
  after_results_simp <;> rfl

/-- The positive distances as a column. -/
theorem V_pos (c : Dev nD) : (V m c main_v30 : S4096x1.Idx → EReal)
    = shapeCast S4096x1 (Cert.ReferenceIdeal.ReadP.val_main_v32 (F := Ideal) (A0 m c) (A1 m c) (A2 m c)) shapeCasts_S4096_S4096x1 := by
  show StableHlo.after hostOps0 (fun b => m (c, b)) (Proc.devRef .tc main_v30) = _
  after_results_simp <;> rfl

/-! ## Which rows a point reads -/

/-- The printed index maps and the column-tile number, decided over the grid. -/
theorem idxIn : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = t.val / 16 ∧ win0_3.index t (1 : Fin 2) = 0
    ∧ (grid0.coords t 1).val = t.val % 16 :=
  (by decide +kernel : ∀ t : Fin grid0.N, _)

/-- The feature block. -/
theorem blk0_at (c : Dev nD) (t : Fin cfg0.N) (r k : Fin 512) :
    (iblk m c 0 t : Vec Ideal S512x512 .bf16) (ix2 r k)
      = Cert.ReferenceIdeal.ReadP.val_main_v7 (F := Ideal) (A0 m c) (ix2 (rowOf t.val r) k) := by
  obtain ⟨e0, e1, -⟩ := idxIn t
  have hN : t.val < 128 := lt_of_lt_of_eq t.isLt (show cfg0.N = 128 from N_0)
  unfold iblk
  rw [View.read_apply]
  show V m c main_v27 (((cfg0.win 0).blk t).view.emb (ix2 r k)) = _
  rw [V_feat]
  show Cert.ReferenceIdeal.ReadP.val_main_v7 (F := Ideal) (A0 m c) _ = _
  refine congrArg _ (funext fun a => Fin.ext ?_)
  match a with
  | ⟨0, _⟩ =>
    show win0_0.index t (0 : Fin 2) * 512 + 1 * r.val = (512 * (t.val / 16) + r.val) % 4096
    have := r.isLt; omega
  | ⟨1, _⟩ =>
    show win0_0.index t (1 : Fin 2) * 512 + 1 * k.val = k.val
    omega

/-- The centre block. -/
theorem blk1_at (c : Dev nD) (t : Fin cfg0.N) (q k : Fin 512) :
    (iblk m c 1 t : Vec Ideal S512x512 .bf16) (ix2 q k)
      = Cert.ReferenceIdeal.ReadP.val_main_v15 (F := Ideal) (A1 m c) (ix2 (colOf t.val q) k) := by
  obtain ⟨-, -, e0, e1, -⟩ := idxIn t
  have hN : t.val < 128 := lt_of_lt_of_eq t.isLt (show cfg0.N = 128 from N_0)
  unfold iblk
  rw [View.read_apply]
  show V m c main_v28 (((cfg0.win 1).blk t).view.emb (ix2 q k)) = _
  rw [V_cent]
  show Cert.ReferenceIdeal.ReadP.val_main_v15 (F := Ideal) (A1 m c) _ = _
  refine congrArg _ (funext fun a => Fin.ext ?_)
  match a with
  | ⟨0, _⟩ =>
    show win0_1.index t (0 : Fin 2) * 512 + 1 * q.val = (512 * (t.val % 16) + q.val) % 8192
    have := q.isLt; omega
  | ⟨1, _⟩ =>
    show win0_1.index t (1 : Fin 2) * 512 + 1 * k.val = k.val
    omega

/-- The label block. -/
theorem blk2_at (c : Dev nD) (t : Fin cfg0.N) (r : Fin 512) :
    (iblk m c 2 t : Vec Ideal S512x1 .i32) (ix2 r (0 : Fin 1)) = A2 m c (ix1 (rowOf t.val r)) := by
  obtain ⟨-, -, -, -, e0, e1, -⟩ := idxIn t
  have hN : t.val < 128 := lt_of_lt_of_eq t.isLt (show cfg0.N = 128 from N_0)
  have hr := r.isLt
  unfold iblk
  rw [View.read_apply]
  show V m c main_v29 (((cfg0.win 2).blk t).view.emb (ix2 r (0 : Fin 1))) = _
  rw [V_lbl]
  have ei : ((cfg0.win 2).blk t).view.emb (ix2 r (0 : Fin 1)) = ix2 (rowOf t.val r) (0 : Fin 1) :=
    funext fun a => Fin.ext (by
      match a with
      | ⟨0, _⟩ =>
        show win0_2.index t (0 : Fin 2) * 512 + 1 * r.val = (512 * (t.val / 16) + r.val) % 4096
        omega
      | ⟨1, _⟩ =>
        show win0_2.index t (1 : Fin 2) * 1 + 1 * 0 = 0
        omega)
  rw [ei]
  exact Cert.RowOps.column_apply (A2 m c) shapeCasts_S4096_S4096x1 (rowOf t.val r) (0 : Fin 1)

/-- The positive-distance block. -/
theorem blk3_at (c : Dev nD) (t : Fin cfg0.N) (r : Fin 512) :
    (iblk m c 3 t : Vec Ideal S512x1 .f32) (ix2 r (0 : Fin 1))
      = Cert.ReferenceIdeal.ReadP.val_main_v32 (F := Ideal) (A0 m c) (A1 m c) (A2 m c) (ix1 (rowOf t.val r)) := by
  obtain ⟨-, -, -, -, -, -, e0, e1, -⟩ := idxIn t
  have hN : t.val < 128 := lt_of_lt_of_eq t.isLt (show cfg0.N = 128 from N_0)
  have hr := r.isLt
  unfold iblk
  rw [View.read_apply]
  show V m c main_v30 (((cfg0.win 3).blk t).view.emb (ix2 r (0 : Fin 1))) = _
  rw [V_pos]
  have ei : ((cfg0.win 3).blk t).view.emb (ix2 r (0 : Fin 1)) = ix2 (rowOf t.val r) (0 : Fin 1) :=
    funext fun a => Fin.ext (by
      match a with
      | ⟨0, _⟩ =>
        show win0_3.index t (0 : Fin 2) * 512 + 1 * r.val = (512 * (t.val / 16) + r.val) % 4096
        omega
      | ⟨1, _⟩ =>
        show win0_3.index t (1 : Fin 2) * 1 + 1 * 0 = 0
        omega)
  rw [ei]
  exact Cert.RowOps.column_apply _ shapeCasts_S4096_S4096x1 (rowOf t.val r) (0 : Fin 1)

/-- The column tile's base plus a local column is the global column, as 32-bit words. -/
theorem colWord (t : Fin cfg0.N) (q : Fin 512) :
    IntOp.addi (Scalar.muli (BitVec.ofNat 32 (grid0.coords t 1).val) 512#32) (BitVec.ofNat 32 q.val)
      = BitVec.ofNat 32 (colOf t.val q).val := by
  obtain ⟨-, -, -, -, -, -, -, -, e⟩ := idxIn t
  have hq := q.isLt
  rw [e]
  apply BitVec.eq_of_toNat_eq
  show ((BitVec.ofNat 32 (t.val % 16) * 512#32 + BitVec.ofNat 32 q.val : BitVec 32)).toNat = _
  simp only [BitVec.toNat_add, BitVec.toNat_mul, BitVec.toNat_ofNat]
  show _ = (512 * (t.val % 16) + q.val) % 8192 % 2 ^ 32
  omega

end Cert.KernelIdeal.Tile

end
-- ==== Proof.RefSide.lean ====
/-
  The reference read at one entry (n, m), and its result in terms of the matrix total and the count.

  The reference builds the whole 4096 × 8192 matrix: the score at (n, m) is row n's positive distance minus (one minus
  the inner product of normalised feature row n with normalised centre row m); its softplus; the mask "label of n is not
  m, and the softplus is positive"; the masked softplus. Its result selects, on "the count is positive", the total over
  the count or the total, the count being the integer number of mask bits converted to a float.
-/
import proofs.«131508_j2422361555241_1_alg».proof.Proof.RefRead
import proofs.«131508_j2422361555241_1_alg».proof.Proof.Spec

noncomputable section

namespace Cert.ReferenceIdeal.RefValue

open Cert.ReferenceIdeal Cert.ReferenceIdeal.Gen Cert.ReferenceIdeal.ReadP
open Idealize.ShloMosaic Idealize.ShloMosaic.ValueIdx Idealize.ShloMosaic.TcCoe
open Cert.PushLoss
open scoped BigOperators

variable (X0 : (⟨S4096x512, .f32⟩ : BufTy).Contents (Elt Ideal)) (X1 : (⟨S8192x512, .f32⟩ : BufTy).Contents (Elt Ideal))
  (X2 : (⟨S4096, .i32⟩ : BufTy).Contents (Elt Ideal))

/-- The score at (n, m). -/
def score (n : Fin 4096) (mm : Fin 8192) : EReal :=
  val_main_v32 (F := Ideal) X0 X1 X2 (ix1 n)
    - (one32 - ∑ k : Fin 512, val_main_v7 (F := Ideal) X0 (ix2 n k) * val_main_v15 (F := Ideal) X1 (ix2 mm k))

theorem v39_at (n : Fin 4096) (mm : Fin 8192) :
    val_main_v39 (F := Ideal) X0 X1 X2 (ix2 n mm) = score X0 X1 X2 n mm := by
  have e1 : idx_main_v37 (idx_main_v38 (ix2 n mm)) = ix1 n :=
    funext fun a => Fin.ext (by match a with | ⟨0, _⟩ => rfl)
  have e2 : ∀ k : Fin 512, lidx_main_v34 (ix2 n mm) k = ix2 n k := fun k =>
    funext fun a => Fin.ext (by match a with | ⟨0, _⟩ => rfl | ⟨1, _⟩ => rfl)
  have e3 : ∀ k : Fin 512, idx_main_v33 (ridx_main_v34 (ix2 n mm) k) = ix2 mm k := fun k =>
    funext fun a => Fin.ext (by match a with | ⟨0, _⟩ => rfl | ⟨1, _⟩ => rfl)
  rw [val_main_v39_apply, val_main_v38_apply, val_main_v37_apply, e1, val_main_v36_apply, val_main_v35_apply,
    val_main_cst_6_apply, val_main_v34_apply]
  simp only [Ideal.subf_def, Ideal.ofBits_def]
  unfold score
  refine congrArg₂ (· - ·) rfl (congrArg (one32 - ·) (Finset.sum_congr rfl fun k _ => ?_))
  rw [val_main_v33_apply, e2, e3]

/-- The softplus stage is the softplus of the score stage. -/
theorem v40_at (i : S4096x8192.Idx) :
    val_main_v40 (F := Ideal) X0 X1 X2 i = softplusR (val_main_v39 (F := Ideal) X0 X1 X2 i) := by
  have z0 : val_main_call0_v0 (F := Ideal) i = z32 := (val_main_call0_v0_apply i).trans rfl
  have z2 : val_main_call0_v2 (F := Ideal) i = z32 := (val_main_call0_v2_apply i).trans rfl
  have z5 : val_main_call0_v5 (F := Ideal) i = z32 := (val_main_call0_v5_apply i).trans rfl
  show Scalar.select
      (Ideal.cmp .une (val_main_v39 (F := Ideal) X0 X1 X2 i - val_main_call0_v2 (F := Ideal) i)
        (val_main_v39 (F := Ideal) X0 X1 X2 i - val_main_call0_v2 (F := Ideal) i))
      (val_main_v39 (F := Ideal) X0 X1 X2 i + val_main_call0_v5 (F := Ideal) i)
      (max (val_main_v39 (F := Ideal) X0 X1 X2 i) (val_main_call0_v0 (F := Ideal) i)
        + Ideal.log1p (Ideal.exp (-(max (val_main_v39 (F := Ideal) X0 X1 X2 i - val_main_call0_v2 (F := Ideal) i)
            (-(val_main_v39 (F := Ideal) X0 X1 X2 i - val_main_call0_v2 (F := Ideal) i)))))) = _
  rw [z0, z2, z5]
  rfl

/-- The label test at (n, m): the column counter reads m. -/
theorem v28_at (n : Fin 4096) (mm : Fin 8192) :
    val_main_v28 (F := Ideal) X2 (ix2 n mm) = IntOp.cmpi .ne (X2 (ix1 n)) (BitVec.ofNat 32 mm.val) := by
  have e1 : idx_main_v23 (idx_main_v26 (ix2 n mm)) = ix1 n :=
    funext fun a => Fin.ext (by match a with | ⟨0, _⟩ => rfl)
  rw [val_main_v28_apply, val_main_v26_apply, val_main_v23_apply, e1, val_main_v27_apply, val_main_v25_apply,
    val_main_v24_apply]

/-- The mask at (n, m). -/
theorem v43_at (n : Fin 4096) (mm : Fin 8192) :
    val_main_v43 (F := Ideal) X0 X1 X2 (ix2 n mm)
      = counts (X2 (ix1 n)) (BitVec.ofNat 32 mm.val) (score X0 X1 X2 n mm) := by
  have z : val_main_v41 (F := Ideal) (ix2 n mm) = z32 := (val_main_v41_apply (ix2 n mm)).trans rfl
  rw [val_main_v43_apply, v28_at, val_main_v42_apply, v40_at, v39_at, z]
  rfl

/-- The masked softplus at (n, m). -/
theorem v44_at (n : Fin 4096) (mm : Fin 8192) :
    val_main_v44 (F := Ideal) X0 X1 X2 (ix2 n mm)
      = entry (X2 (ix1 n)) (BitVec.ofNat 32 mm.val) (score X0 X1 X2 n mm) := by
  have z : val_main_call1_v1 (F := Ideal) (ix2 n mm) = z32 := (val_main_call1_v1_apply (ix2 n mm)).trans rfl
  rw [val_main_v44_apply, v43_at, v40_at, v39_at, z]
  rfl

/-- The reference's result: the total over the count where the count is positive, the total otherwise; the total is
    zero plus the sum of the masked matrix, the count the integer sum of the widened mask bits read as a real. -/
theorem v51_at (i : S_.Idx) :
    val_main_v51 (F := Ideal) X0 X1 X2 i
      = answer (z32 + ∑ j : S4096x8192.Idx, val_main_v44 (F := Ideal) X0 X1 X2 j)
          ((((Host.reduce IntOp.addi (fun k => (val_main_v43 (F := Ideal) X0 X1 X2 k).setWidth 32)
              (fun _ : S_.Idx => (0#32 : BitVec 32)) reducesTo_S4096x8192_S_d0_1 h_S_ i).toInt : ℝ) : EReal)) := by
  have hs : val_main_v48 (F := Ideal) X0 X1 X2 i = z32 + ∑ j : S4096x8192.Idx, val_main_v44 (F := Ideal) X0 X1 X2 j :=
    (val_main_v48_apply X0 X1 X2 i).trans rfl
  have hz : val_main_cst_11 (F := Ideal) i = z32 := rfl
  rw [val_main_v51_apply, val_main_v49_apply, val_main_v50_apply, val_main_v47_apply, hs, hz]
  rfl

end Cert.ReferenceIdeal.RefValue

end
-- ==== Proof.LibTotals.lean ====
/-
  Totals are insensitive to layout, at the ideal instance.

  Two general facts about the sum of ALL entries of a vector over the extended reals (or any commutative
  additive monoid):

    * a shape cast only re-indexes the entries (row-major position is kept), so the total is unchanged;
    * an additive reduction over any set of axes leaves, at each reduced index, the sum of the entries that
      reduce to it; the reduced indices partition the source indices, so the total of the reduced vector is the
      total of the source.

  With them a chain "reduce the lanes, cast, reduce the sublanes, cast, reduce the batch" collapses to the one
  total of its source without naming a single coordinate.

  And a rank-3 index set is the product of its three coordinate ranges, so a total over it is a triple sum over
  the coordinates (the rank-2 form is the library's).
-/
import Idealize.ShloMosaic.PureOps.Ideal.Laws
import Idealize.ShloMosaic.Lib.ValueIdx

open scoped BigOperators

namespace Idealize.ShloMosaic.LibTotals

open Idealize.ShloMosaic

/-- The total of a shape cast is the total of its operand: the cast reads the operand through a bijection of the
    two index sets. -/
theorem sum_shapeCast {s t : Shape} {M : Type} [AddCommMonoid M] (x : s.Idx → M) (h : s.ShapeCasts t) :
    ∑ j : t.Idx, shapeCast t x h j = ∑ i : s.Idx, x i :=
  Equiv.sum_comp (Shape.reshapeEquiv h) x

/-- The total of an additive `vector.multi_reduction`, read at the ideal instance, is the total of its source:
    each reduced entry is the sum over the fibre of source indices that drop to it, and the fibres partition
    the source. -/
theorem sum_multiReduction_add {s t : Shape} {φ : FTy} {axes : List (Fin s.rank)} (src : FVec Ideal s φ)
    (acc : BitVec φ.bits) (h : s.Reduces axes t) (hφ : FKind.Formats φ) (hacc : acc = FKind.add.neutral φ hφ) :
    ∑ j : t.Idx, multiReduction .add axes t src acc h hφ hacc j = ∑ i : s.Idx, src i := by
  show ∑ j : t.Idx, Ideal.reduceAdd h src j = _
  unfold Ideal.reduceAdd
  exact Finset.sum_fiberwise Finset.univ (fun i => h.drop i) src

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ValueIdx.ix3 p.1 p.2.1 p.2.2
  left_inv i := (ValueIdx.eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ValueIdx.ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Idealize.ShloMosaic.LibTotals
-- ==== Proof.Running.lean ====
/-
  The two running totals, point by point, and in closed form.

  The grid is walked row tile by row tile, and inside a row tile column tile by column tile (point n is row tile n / 16,
  column tile n % 16). After point n each accumulator holds what the recursion below says: the tile's total added to the
  stored zero at a first column tile, to what point n - 1 left otherwise. At the ideal instance "the tile's total" is the
  plain sum of the tile's entries — the body's lane sum, sublane sum and the casts between them only regroup it — so after
  point n the accumulator is zero plus the totals of the tiles of points 16·(n/16) … n.
-/
import proofs.«131508_j2422361555241_1_alg».proof.Proof.Pieces
import proofs.«131508_j2422361555241_1_alg».proof.Proof.LibTotals
import proofs.«131508_j2422361555241_1_alg».proof.Proof.Spec

set_option maxRecDepth 16384

noncomputable section

namespace Cert.KernelIdeal.Tile

open Cert.KernelIdeal Cert.KernelIdeal.Gen
open Idealize.ShloMosaic Idealize.ShloMosaic.TcCoe Idealize.SL.Sem
open scoped BigOperators

/-! ## The recursion, for any float values -/

section Generic

variable {F : FTy → Type} [FloatOps F]
variable (m : (ℓ : Loc nD τ sig) → Buf (Elt F) ℓ)

/-- The loss accumulator after point `n`. -/
def lossAt (c : Dev nD) : (n : ℕ) → n < cfg0.N → Vec F S1x1x1 .f32
  | 0, h => accLoss (grid0.coords ⟨0, h⟩) (iblk m c 0 ⟨0, h⟩) (iblk m c 1 ⟨0, h⟩) (iblk m c 2 ⟨0, h⟩) (iblk m c 3 ⟨0, h⟩) (k0_pay3 (F := F))
  | n + 1, h => accLoss (grid0.coords ⟨n + 1, h⟩) (iblk m c 0 ⟨n + 1, h⟩) (iblk m c 1 ⟨n + 1, h⟩) (iblk m c 2 ⟨n + 1, h⟩) (iblk m c 3 ⟨n + 1, h⟩)
      (if (n + 1) % 16 = 0 then k0_pay3 (F := F) else lossAt c n (Nat.lt_of_succ_lt h))

/-- The count accumulator after point `n`. -/
def countAt (c : Dev nD) : (n : ℕ) → n < cfg0.N → Vec F S1x1x1 .f32
  | 0, h => accCount (grid0.coords ⟨0, h⟩) (iblk m c 0 ⟨0, h⟩) (iblk m c 1 ⟨0, h⟩) (iblk m c 2 ⟨0, h⟩) (iblk m c 3 ⟨0, h⟩) (k0_pay4 (F := F))
  | n + 1, h => accCount (grid0.coords ⟨n + 1, h⟩) (iblk m c 0 ⟨n + 1, h⟩) (iblk m c 1 ⟨n + 1, h⟩) (iblk m c 2 ⟨n + 1, h⟩) (iblk m c 3 ⟨n + 1, h⟩)
      (if (n + 1) % 16 = 0 then k0_pay4 (F := F) else countAt c n (Nat.lt_of_succ_lt h))

theorem lossAt_zero (c : Dev nD) (h : 0 < cfg0.N) :
    lossAt m c 0 h = accLoss (grid0.coords ⟨0, h⟩) (iblk m c 0 ⟨0, h⟩) (iblk m c 1 ⟨0, h⟩) (iblk m c 2 ⟨0, h⟩) (iblk m c 3 ⟨0, h⟩) (k0_pay3 (F := F)) := rfl

theorem lossAt_succ (c : Dev nD) (n : ℕ) (h : n + 1 < cfg0.N) :
    lossAt m c (n + 1) h = accLoss (grid0.coords ⟨n + 1, h⟩) (iblk m c 0 ⟨n + 1, h⟩) (iblk m c 1 ⟨n + 1, h⟩) (iblk m c 2 ⟨n + 1, h⟩) (iblk m c 3 ⟨n + 1, h⟩)
      (if (n + 1) % 16 = 0 then k0_pay3 (F := F) else lossAt m c n (Nat.lt_of_succ_lt h)) := rfl

theorem countAt_zero (c : Dev nD) (h : 0 < cfg0.N) :
    countAt m c 0 h = accCount (grid0.coords ⟨0, h⟩) (iblk m c 0 ⟨0, h⟩) (iblk m c 1 ⟨0, h⟩) (iblk m c 2 ⟨0, h⟩) (iblk m c 3 ⟨0, h⟩) (k0_pay4 (F := F)) := rfl

theorem countAt_succ (c : Dev nD) (n : ℕ) (h : n + 1 < cfg0.N) :
    countAt m c (n + 1) h = accCount (grid0.coords ⟨n + 1, h⟩) (iblk m c 0 ⟨n + 1, h⟩) (iblk m c 1 ⟨n + 1, h⟩) (iblk m c 2 ⟨n + 1, h⟩) (iblk m c 3 ⟨n + 1, h⟩)
      (if (n + 1) % 16 = 0 then k0_pay4 (F := F) else countAt m c n (Nat.lt_of_succ_lt h)) := rfl

set_option maxHeartbeats 3200000 in
/-- What the frame's point-by-point record holds for the two accumulators is that recursion. -/
theorem scr_eq (c : Dev nD) (n : ℕ) : ∀ (h : n < cfg0.N),
    (outsAt0 m c n h).2.2.1 = lossAt m c n h ∧ (outsAt0 m c n h).2.2.2 = countAt m c n h := by
  induction n with
  | zero =>
    intro h
    have hz0 : (0 : ℕ) % 16 = 0 := rfl
    have hz1 : ¬(0 : ℕ) % 16 = 15 := by decide
    rw [outsAt0_A m c ⟨0, h⟩ hz0 hz1]
    dsimp only
    exact ⟨loss_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) scM0_1 (Memref.isWhole_whole _) ((hcond0_0 ⟨0, h⟩).mpr hz0) (fun hh => hz1 ((hcond0_1 ⟨0, h⟩).mp hh)) (iblk m c 0 ⟨0, h⟩) (iblk m c 1 ⟨0, h⟩) (iblk m c 2 ⟨0, h⟩) (iblk m c 3 ⟨0, h⟩),
      count_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) scM0_1 (Memref.isWhole_whole _) ((hcond0_0 ⟨0, h⟩).mpr hz0) (fun hh => hz1 ((hcond0_1 ⟨0, h⟩).mp hh)) (iblk m c 0 ⟨0, h⟩) (iblk m c 1 ⟨0, h⟩) (iblk m c 2 ⟨0, h⟩) (iblk m c 3 ⟨0, h⟩)⟩
  | succ n ih =>
    intro h
    have hN : cfg0.N = 128 := N_0
    have ih' := ih (Nat.lt_of_succ_lt h)
    by_cases h0 : (n + 1) % 16 = 0
    · have h1 : ¬(n + 1) % 16 = 15 := by omega
      rw [outsAt0_A m c ⟨n + 1, h⟩ h0 h1]
      dsimp only
      refine ⟨(loss_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) ((hcond0_0 ⟨n + 1, h⟩).mpr h0) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩)).trans ?_,
        (count_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) ((hcond0_0 ⟨n + 1, h⟩).mpr h0) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩)).trans ?_⟩
      · rw [lossAt_succ, if_pos h0]
      · rw [countAt_succ, if_pos h0]
    · by_cases h1 : (n + 1) % 16 = 15
      · rw [outsAt0_C m c ⟨n + 1, h⟩ h0 h1]
        dsimp only
        refine ⟨(loss_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (outsAt0 m c n (Nat.lt_of_succ_lt h)).2.2.1 (outsAt0 m c n (Nat.lt_of_succ_lt h)).2.2.2).trans ?_,
          (count_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (outsAt0 m c n (Nat.lt_of_succ_lt h)).2.2.1 (outsAt0 m c n (Nat.lt_of_succ_lt h)).2.2.2).trans ?_⟩
        · rw [lossAt_succ, if_neg h0]
          exact congrArg (accLoss (grid0.coords ⟨n + 1, h⟩) (iblk m c 0 ⟨n + 1, h⟩) (iblk m c 1 ⟨n + 1, h⟩) (iblk m c 2 ⟨n + 1, h⟩) (iblk m c 3 ⟨n + 1, h⟩)) ih'.1
        · rw [countAt_succ, if_neg h0]
          exact congrArg (accCount (grid0.coords ⟨n + 1, h⟩) (iblk m c 0 ⟨n + 1, h⟩) (iblk m c 1 ⟨n + 1, h⟩) (iblk m c 2 ⟨n + 1, h⟩) (iblk m c 3 ⟨n + 1, h⟩)) ih'.2
      · rw [outsAt0_B m c ⟨n + 1, h⟩ h0 h1]
        dsimp only
        refine ⟨(loss_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (outsAt0 m c n (Nat.lt_of_succ_lt h)).2.2.1 (outsAt0 m c n (Nat.lt_of_succ_lt h)).2.2.2).trans ?_,
          (count_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (outsAt0 m c n (Nat.lt_of_succ_lt h)).2.2.1 (outsAt0 m c n (Nat.lt_of_succ_lt h)).2.2.2).trans ?_⟩
        · rw [lossAt_succ, if_neg h0]
          exact congrArg (accLoss (grid0.coords ⟨n + 1, h⟩) (iblk m c 0 ⟨n + 1, h⟩) (iblk m c 1 ⟨n + 1, h⟩) (iblk m c 2 ⟨n + 1, h⟩) (iblk m c 3 ⟨n + 1, h⟩)) ih'.1
        · rw [countAt_succ, if_neg h0]
          exact congrArg (accCount (grid0.coords ⟨n + 1, h⟩) (iblk m c 0 ⟨n + 1, h⟩) (iblk m c 1 ⟨n + 1, h⟩) (iblk m c 2 ⟨n + 1, h⟩) (iblk m c 3 ⟨n + 1, h⟩)) ih'.2

set_option maxHeartbeats 1600000 in
/-- At a last column tile the two outputs' staging buffers hold the accumulators. -/
theorem out_eq (c : Dev nD) (t : Fin cfg0.N) (h15 : t.val % 16 = 15) :
    (outsAt0 m c t.val t.isLt).1 = lossAt m c t.val t.isLt ∧ (outsAt0 m c t.val t.isLt).2.1 = countAt m c t.val t.isLt := by
  have h0 : ¬t.val % 16 = 0 := by omega
  have hs := scr_eq m c t.val t.isLt
  rw [outsAt0_C m c t h0 h15] at hs ⊢
  dsimp only at hs ⊢
  exact ⟨(lossOut_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun hh => h0 ((hcond0_0 t).mp hh)) ((hcond0_1 t).mpr h15) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2).trans
      ((loss_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun hh => h0 ((hcond0_0 t).mp hh)) ((hcond0_1 t).mpr h15) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2).symm.trans hs.1),
    (countOut_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun hh => h0 ((hcond0_0 t).mp hh)) ((hcond0_1 t).mpr h15) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2).trans
      ((count_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun hh => h0 ((hcond0_0 t).mp hh)) ((hcond0_1 t).mpr h15) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2).symm.trans hs.2)⟩

end Generic

/-! ## At the ideal instance: sums -/

section AtIdeal

variable (m : (ℓ : Loc nD τ sig) → Buf (Elt Ideal) ℓ)

/-- A [1,1,1] vector has one entry. -/
instance : Subsingleton S1x1x1.Idx := ⟨fun a b => funext fun d => by
  match d with
  | ⟨0, _⟩ => exact Subsingleton.elim (α := Fin 1) _ _
  | ⟨1, _⟩ => exact Subsingleton.elim (α := Fin 1) _ _
  | ⟨2, _⟩ => exact Subsingleton.elim (α := Fin 1) _ _⟩

/-- The total of a tile's masked losses. -/
def tileLoss (i : grid0.Coords) (x0 x1 : Vec Ideal S512x512 .bf16) (x2 : Vec Ideal S512x1 .i32) (x3 : Vec Ideal S512x1 .f32) : EReal :=
  ∑ j : S512x512.Idx, Scalar.select (k0_pay6 (F := Ideal) i x0 x1 x3 x2 j) (k0_pay5 (F := Ideal) x0 x1 x3 j)
    (Ideal.ofBits .f32 0x00000000#32)

/-- The number of a tile's entries that count, as the sum of their 0/1 indicators read as reals. -/
def tileCount (i : grid0.Coords) (x0 x1 : Vec Ideal S512x512 .bf16) (x2 : Vec Ideal S512x1 .i32) (x3 : Vec Ideal S512x1 .f32) : EReal :=
  ∑ j : S512x512.Idx, ((((k0_pay6 (F := Ideal) i x0 x1 x3 x2 j).setWidth 32).toInt : ℝ) : EReal)

/-- The one entry of a [1,1,1] vector is its total. -/
theorem one_entry (v : S1x1x1.Idx → EReal) (y : S1x1x1.Idx) : v y = ∑ j, v j :=
  (Fintype.sum_eq_single y fun j hj => absurd (Subsingleton.elim j y) hj).symm

/-- The stored zero. -/
theorem pay3_apply (y : S1x1x1.Idx) : k0_pay3 (F := Ideal) y = Cert.PushLoss.z32 :=
  congrFun (shapeCast_self (broadcast S1x1x1 (Scalar.ofBits (F := Ideal) .f32 0x00000000#32)) shapeCasts_S1x1x1_S1x1x1) y

theorem pay4_apply (y : S1x1x1.Idx) : k0_pay4 (F := Ideal) y = Cert.PushLoss.z32 :=
  congrFun (shapeCast_self (broadcast S1x1x1 (Scalar.ofBits (F := Ideal) .f32 0x00000000#32)) shapeCasts_S1x1x1_S1x1x1) y

/-- The loss accumulator's step: what it held plus the tile's total (the lane sum, the sublane sum and the casts
    between them keep the total). -/
theorem accLoss_apply (i : grid0.Coords) (x0 x1 : Vec Ideal S512x512 .bf16) (x2 : Vec Ideal S512x1 .i32)
    (x3 : Vec Ideal S512x1 .f32) (xs : Vec Ideal S1x1x1 .f32) (y : S1x1x1.Idx) :
    accLoss (F := Ideal) i x0 x1 x2 x3 xs y = xs y + tileLoss i x0 x1 x2 x3 := by
  unfold accLoss k0_pay1 tileLoss
  refine (congrFun (shapeCast_self _ shapeCasts_S1x1x1_S1x1x1) y).trans ?_
  refine congrArg (xs y + ·) ?_
  refine (one_entry _ y).trans ?_
  refine (LibTotals.sum_shapeCast _ _).trans ?_
  refine (LibTotals.sum_shapeCast _ _).trans ?_
  refine (LibTotals.sum_multiReduction_add _ _ _ _ _).trans ?_
  refine (LibTotals.sum_shapeCast _ _).trans ?_
  exact LibTotals.sum_multiReduction_add _ _ _ _ _

/-- The count accumulator's step, likewise. -/
theorem accCount_apply (i : grid0.Coords) (x0 x1 : Vec Ideal S512x512 .bf16) (x2 : Vec Ideal S512x1 .i32)
    (x3 : Vec Ideal S512x1 .f32) (xs : Vec Ideal S1x1x1 .f32) (y : S1x1x1.Idx) :
    accCount (F := Ideal) i x0 x1 x2 x3 xs y = xs y + tileCount i x0 x1 x2 x3 := by
  unfold accCount k0_pay2 tileCount
  refine (congrFun (shapeCast_self _ shapeCasts_S1x1x1_S1x1x1) y).trans ?_
  refine congrArg (xs y + ·) ?_
  refine (one_entry _ y).trans ?_
  refine (LibTotals.sum_shapeCast _ _).trans ?_
  refine (LibTotals.sum_shapeCast _ _).trans ?_
  refine (LibTotals.sum_multiReduction_add _ _ _ _ _).trans ?_
  refine (LibTotals.sum_shapeCast _ _).trans ?_
  exact LibTotals.sum_multiReduction_add _ _ _ _ _

/-- The loss total of the tile of point `k` (zero past the grid, where it is never used). -/
def lossOf (c : Dev nD) (k : ℕ) : EReal :=
  if hk : k < cfg0.N then tileLoss (grid0.coords ⟨k, hk⟩) (iblk m c 0 ⟨k, hk⟩) (iblk m c 1 ⟨k, hk⟩) (iblk m c 2 ⟨k, hk⟩) (iblk m c 3 ⟨k, hk⟩) else 0

/-- The count of the tile of point `k`. -/
def countOf (c : Dev nD) (k : ℕ) : EReal :=
  if hk : k < cfg0.N then tileCount (grid0.coords ⟨k, hk⟩) (iblk m c 0 ⟨k, hk⟩) (iblk m c 1 ⟨k, hk⟩) (iblk m c 2 ⟨k, hk⟩) (iblk m c 3 ⟨k, hk⟩) else 0

/-- After point `n` the loss accumulator is zero plus the totals of the tiles of its row tile up to `n`. -/
theorem lossAt_apply (c : Dev nD) (y : S1x1x1.Idx) (n : ℕ) : ∀ (h : n < cfg0.N),
    lossAt m c n h y = Cert.PushLoss.z32 + ∑ s ∈ Finset.range (n % 16 + 1), lossOf m c (16 * (n / 16) + s) := by
  induction n with
  | zero =>
    intro h
    rw [lossAt_zero, accLoss_apply (grid0.coords ⟨0, h⟩) (iblk m c 0 ⟨0, h⟩) (iblk m c 1 ⟨0, h⟩) (iblk m c 2 ⟨0, h⟩) (iblk m c 3 ⟨0, h⟩) _ y, pay3_apply]
    refine congrArg (Cert.PushLoss.z32 + ·) ?_
    rw [show (0 % 16 + 1) = 1 from rfl, Finset.sum_range_one]
    show _ = lossOf m c 0
    unfold lossOf
    rw [dif_pos h]
  | succ n ih =>
    intro h
    rw [lossAt_succ, accLoss_apply (grid0.coords ⟨n + 1, h⟩) (iblk m c 0 ⟨n + 1, h⟩) (iblk m c 1 ⟨n + 1, h⟩) (iblk m c 2 ⟨n + 1, h⟩) (iblk m c 3 ⟨n + 1, h⟩) _ y]
    by_cases h0 : (n + 1) % 16 = 0
    · rw [if_pos h0, pay3_apply, h0]
      refine congrArg (Cert.PushLoss.z32 + ·) ?_
      rw [show (0 + 1) = 1 from rfl, Finset.sum_range_one]
      have e1 : 16 * ((n + 1) / 16) + 0 = n + 1 := by omega
      rw [e1]
      unfold lossOf
      rw [dif_pos h]
    · rw [if_neg h0, ih (Nat.lt_of_succ_lt h)]
      have e1 : (n + 1) / 16 = n / 16 := by omega
      have e2 : (n + 1) % 16 = n % 16 + 1 := by omega
      have e3 : 16 * (n / 16) + (n % 16 + 1) = n + 1 := by omega
      rw [e1, e2, Finset.sum_range_succ _ (n % 16 + 1), e3, add_assoc]
      refine congrArg (Cert.PushLoss.z32 + ·) (congrArg (_ + ·) ?_)
      unfold lossOf
      rw [dif_pos h]

/-- After point `n` the count accumulator is zero plus the counts of the tiles of its row tile up to `n`. -/
theorem countAt_apply (c : Dev nD) (y : S1x1x1.Idx) (n : ℕ) : ∀ (h : n < cfg0.N),
    countAt m c n h y = Cert.PushLoss.z32 + ∑ s ∈ Finset.range (n % 16 + 1), countOf m c (16 * (n / 16) + s) := by
  induction n with
  | zero =>
    intro h
    rw [countAt_zero, accCount_apply (grid0.coords ⟨0, h⟩) (iblk m c 0 ⟨0, h⟩) (iblk m c 1 ⟨0, h⟩) (iblk m c 2 ⟨0, h⟩) (iblk m c 3 ⟨0, h⟩) _ y, pay4_apply]
    refine congrArg (Cert.PushLoss.z32 + ·) ?_
    rw [show (0 % 16 + 1) = 1 from rfl, Finset.sum_range_one]
    show _ = countOf m c 0
    unfold countOf
    rw [dif_pos h]
  | succ n ih =>
    intro h
    rw [countAt_succ, accCount_apply (grid0.coords ⟨n + 1, h⟩) (iblk m c 0 ⟨n + 1, h⟩) (iblk m c 1 ⟨n + 1, h⟩) (iblk m c 2 ⟨n + 1, h⟩) (iblk m c 3 ⟨n + 1, h⟩) _ y]
    by_cases h0 : (n + 1) % 16 = 0
    · rw [if_pos h0, pay4_apply, h0]
      refine congrArg (Cert.PushLoss.z32 + ·) ?_
      rw [show (0 + 1) = 1 from rfl, Finset.sum_range_one]
      have e1 : 16 * ((n + 1) / 16) + 0 = n + 1 := by omega
      rw [e1]
      unfold countOf
      rw [dif_pos h]
    · rw [if_neg h0, ih (Nat.lt_of_succ_lt h)]
      have e1 : (n + 1) / 16 = n / 16 := by omega
      have e2 : (n + 1) % 16 = n % 16 + 1 := by omega
      have e3 : 16 * (n / 16) + (n % 16 + 1) = n + 1 := by omega
      rw [e1, e2, Finset.sum_range_succ _ (n % 16 + 1), e3, add_assoc]
      refine congrArg (Cert.PushLoss.z32 + ·) (congrArg (_ + ·) ?_)
      unfold countOf
      rw [dif_pos h]

end AtIdeal

end Cert.KernelIdeal.Tile

end
-- ==== Proof.TileEntry.lean ====
/-
  A tile's entries are the reference's matrix entries.

  At grid point t the entry (r, q) of the tile is the reference's matrix entry at row 512·(t/16) + r and column
  512·(t%16) + q: the blocks hold those rows of the reference's own stages, the column counter plus the tile's base is
  that column, and the two spellings of the softplus are one function. So the tile's total is the sum of those matrix
  entries, and its count the sum of their indicators.
-/
import proofs.«131508_j2422361555241_1_alg».proof.Proof.Elem
import proofs.«131508_j2422361555241_1_alg».proof.Proof.Blocks
import proofs.«131508_j2422361555241_1_alg».proof.Proof.RefSide
import proofs.«131508_j2422361555241_1_alg».proof.Proof.Running

set_option maxRecDepth 16384

noncomputable section

namespace Cert.KernelIdeal.Tile

open Cert.KernelIdeal Cert.KernelIdeal.Gen
open Idealize.ShloMosaic Idealize.ShloMosaic.ValueIdx Idealize.ShloMosaic.TcCoe Idealize.SL.Sem
open Cert.PushLoss
open scoped BigOperators

variable (m : (ℓ : Loc nD τ sig) → Buf (Elt Ideal) ℓ)

/-- The loss payload at (r, q) is the softplus of the reference's score at the global entry. -/
theorem loss_entry (c : Dev nD) (t : Fin cfg0.N) (r q : Fin 512) :
    k0_pay5 (F := Ideal) (iblk m c 0 t) (iblk m c 1 t) (iblk m c 3 t) (ix2 r q)
      = softplusR (Cert.ReferenceIdeal.RefValue.score (A0 m c) (A1 m c) (A2 m c) (rowOf t.val r) (colOf t.val q)) := by
  refine (pay5_at (iblk m c 0 t) (iblk m c 1 t) (iblk m c 3 t) r q).trans ?_
  rw [softplusK_eq]
  refine congrArg softplusR ?_
  unfold Cert.ReferenceIdeal.RefValue.score
  refine congrArg₂ (· - ·) (blk3_at m c t r) (congrArg (one32 - ·) (Finset.sum_congr rfl fun k _ => ?_))
  rw [blk0_at m c t r k, blk1_at m c t q k]

/-- The mask payload at (r, q) is the reference's mask at the global entry. -/
theorem mask_entry (c : Dev nD) (t : Fin cfg0.N) (r q : Fin 512) :
    k0_pay6 (F := Ideal) (grid0.coords t) (iblk m c 0 t) (iblk m c 1 t) (iblk m c 3 t) (iblk m c 2 t) (ix2 r q)
      = Cert.ReferenceIdeal.ReadP.val_main_v43 (F := Ideal) (A0 m c) (A1 m c) (A2 m c) (ix2 (rowOf t.val r) (colOf t.val q)) := by
  refine (pay6_at (grid0.coords t) (iblk m c 0 t) (iblk m c 1 t) (iblk m c 3 t) (iblk m c 2 t) r q).trans ?_
  rw [blk2_at m c t r, colWord t q, loss_entry m c t r q]
  exact (Cert.ReferenceIdeal.RefValue.v43_at (A0 m c) (A1 m c) (A2 m c) (rowOf t.val r) (colOf t.val q)).symm

/-- The masked loss at (r, q) is the reference's masked matrix at the global entry. -/
theorem masked_entry (c : Dev nD) (t : Fin cfg0.N) (r q : Fin 512) :
    Scalar.select (k0_pay6 (F := Ideal) (grid0.coords t) (iblk m c 0 t) (iblk m c 1 t) (iblk m c 3 t) (iblk m c 2 t) (ix2 r q))
        (k0_pay5 (F := Ideal) (iblk m c 0 t) (iblk m c 1 t) (iblk m c 3 t) (ix2 r q)) (Ideal.ofBits .f32 0x00000000#32)
      = Cert.ReferenceIdeal.ReadP.val_main_v44 (F := Ideal) (A0 m c) (A1 m c) (A2 m c) (ix2 (rowOf t.val r) (colOf t.val q)) := by
  rw [mask_entry m c t r q, loss_entry m c t r q,
    Cert.ReferenceIdeal.RefValue.v43_at (A0 m c) (A1 m c) (A2 m c) (rowOf t.val r) (colOf t.val q)]
  exact (Cert.ReferenceIdeal.RefValue.v44_at (A0 m c) (A1 m c) (A2 m c) (rowOf t.val r) (colOf t.val q)).symm

/-- The loss total of the tile of point k is the sum of the reference's masked matrix over the tile. -/
theorem lossOf_eq (c : Dev nD) (k : ℕ) (hk : k < cfg0.N) :
    lossOf m c k = ∑ r : Fin 512, ∑ q : Fin 512,
      Cert.ReferenceIdeal.ReadP.val_main_v44 (F := Ideal) (A0 m c) (A1 m c) (A2 m c) (ix2 (rowOf k r) (colOf k q)) := by
  unfold lossOf
  rw [dif_pos hk]
  unfold tileLoss
  rw [sum_idx2]
  exact Finset.sum_congr rfl fun r _ => Finset.sum_congr rfl fun q _ => masked_entry m c ⟨k, hk⟩ r q

/-- The count of the tile of point k is the sum of the indicators of the reference's mask over the tile. -/
theorem countOf_eq (c : Dev nD) (k : ℕ) (hk : k < cfg0.N) :
    countOf m c k = ∑ r : Fin 512, ∑ q : Fin 512,
      ((((Cert.ReferenceIdeal.ReadP.val_main_v43 (F := Ideal) (A0 m c) (A1 m c) (A2 m c) (ix2 (rowOf k r) (colOf k q))).setWidth 32).toInt : ℝ) : EReal) := by
  unfold countOf
  rw [dif_pos hk]
  unfold tileCount
  rw [sum_idx2]
  exact Finset.sum_congr rfl fun r _ => Finset.sum_congr rfl fun q _ =>
    congrArg (fun b : BitVec 1 => (((b.setWidth 32).toInt : ℝ) : EReal)) (mask_entry m c ⟨k, hk⟩ r q)

end Cert.KernelIdeal.Tile

end
-- ==== Proof.Outputs.lean ====
/-
  The two output arrays after the region.

  Each output has one entry per row tile, written back once, by the row tile's last column tile, from the accumulator.
  So entry `a` ends at zero plus the totals (or counts) of the sixteen tiles of row tile `a`, and every entry is
  written: the eight last-column points cover the array.
-/
import proofs.«131508_j2422361555241_1_alg».proof.Proof.Running

set_option maxRecDepth 16384

noncomputable section

namespace Cert.KernelIdeal.Tile

open Cert.KernelIdeal Cert.KernelIdeal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- Output 0 (the loss totals): row tile `a`'s entry is zero plus the loss totals of its sixteen tiles. -/
def lossFn (c : Dev nD) : S8x1x1.Idx → EReal :=
  fun a => Cert.PushLoss.z32 + ∑ s ∈ Finset.range 16, lossOf m c (16 * (a 0).val + s)

abbrev lossArr (c : Dev nD) : Buf (Elt Ideal) ((c : Thread nD τ).loc main_v31_0) := lossFn m c

/-- The output's block at point `t` is entry `t / 16`. -/
theorem idx4 : ∀ t : Fin cfg0.N, win0_4.index t (0 : Fin 3) = t.val / 16 ∧ win0_4.index t (1 : Fin 3) = 0
    ∧ win0_4.index t (2 : Fin 3) = 0 :=
  (by decide +kernel : ∀ t : Fin grid0.N, _)

/-- What a last column tile writes back is its row tile's entry. -/
theorem flushed4_eq (c : Dev nD) (t : Fin cfg0.N) (hf : (cfg0.win 4).flush t = true) :
    (dats m 0 c).flushed 4 t = ((cfg0.win 4).blk t).view.read (Elt Ideal) (lossArr m c) := by
  have h15 : t.val % 16 = 15 := (flush0_4 t).mp hf
  show (cfg0.win 4).cut (grid0.coords t) ((dats m 0 c).after 4 t) = _
  rw [after0_4, (out_eq m c t h15).1]
  funext y
  show lossAt m c t.val t.isLt y = lossFn m c (((cfg0.win 4).blk t).view.emb y)
  rw [lossAt_apply m c y t.val t.isLt]
  obtain ⟨e0, e1, e2⟩ := idx4 t
  have ea : ((((cfg0.win 4).blk t).view.emb y) 0).val = t.val / 16 := by
    show win0_4.index t (0 : Fin 3) * 1 + 1 * (y 0).val = _
    have hy : (y 0).val < 1 := (y 0).isLt
    omega
  unfold lossFn
  rw [ea]
  exact congrArg (fun k => Cert.PushLoss.z32 + ∑ s ∈ Finset.range (k + 1), lossOf m c (16 * (t.val / 16) + s)) h15

/-- An index is in point `t`'s block iff each coordinate is in the block's range. -/
theorem mem_blk4 (t : Fin cfg0.N) (i : S8x1x1.Idx) :
    i ∈ ((cfg0.win 4).blk t).view.set ↔ ∀ a : Fin 3, win0_4.index t a * S1x1x1.size a ≤ (i a).val ∧ (i a).val < win0_4.index t a * S1x1x1.size a + S1x1x1.size a := by
  show i ∈ ((View.whole main_v31_0).slice (win0_4.rect t)).set ↔ _
  rw [View.set_slice_whole, Rect.mem_set_unit]
  exact Iff.rfl

/-- Every entry is written back, by its row tile's last point. -/
theorem cover4 (i : S8x1x1.Idx) : ∃ t : Fin cfg0.N, (cfg0.win 4).flush t = true ∧ i ∈ ((cfg0.win 4).blk t).view.set := by
  have hN : cfg0.N = 128 := N_0
  have hi0 : (i 0).val < 8 := (i 0).isLt
  have hi1 : (i 1).val < 1 := (i 1).isLt
  have hi2 : (i 2).val < 1 := (i 2).isLt
  have hlt : 16 * (i 0).val + 15 < cfg0.N := by omega
  refine ⟨⟨16 * (i 0).val + 15, hlt⟩, (flush0_4 _).mpr (by show (16 * (i 0).val + 15) % 16 = 15; omega), ?_⟩
  rw [mem_blk4]
  obtain ⟨e0, e1, e2⟩ := idx4 ⟨16 * (i 0).val + 15, hlt⟩
  have e0' : win0_4.index ⟨16 * (i 0).val + 15, hlt⟩ (0 : Fin 3) = (i 0).val := by
    rw [e0]; show (16 * (i 0).val + 15) / 16 = _; omega
  intro a
  match a with
  | ⟨0, _⟩ => show win0_4.index _ (0 : Fin 3) * 1 ≤ (i 0).val ∧ (i 0).val < win0_4.index _ (0 : Fin 3) * 1 + 1; omega
  | ⟨1, _⟩ => show win0_4.index _ (1 : Fin 3) * 1 ≤ (i 1).val ∧ (i 1).val < win0_4.index _ (1 : Fin 3) * 1 + 1; omega
  | ⟨2, _⟩ => show win0_4.index _ (2 : Fin 3) * 1 ≤ (i 2).val ∧ (i 2).val < win0_4.index _ (2 : Fin 3) * 1 + 1; omega

/-- So the array ends at those entries. -/
theorem final4 (c : Dev nD) : (dats m 0 c).arrAt 4 cfg0.N = lossArr m c :=
  (dats m 0 c).arrAt_eq_of_cover 4 (lossArr m c) (flushed4_eq m c) (cover4)

/-- Output 1 (the counts): row tile `a`'s entry is zero plus the counts of its sixteen tiles. -/
def countFn (c : Dev nD) : S8x1x1.Idx → EReal :=
  fun a => Cert.PushLoss.z32 + ∑ s ∈ Finset.range 16, countOf m c (16 * (a 0).val + s)

abbrev countArr (c : Dev nD) : Buf (Elt Ideal) ((c : Thread nD τ).loc main_v31_1) := countFn m c

/-- The output's block at point `t` is entry `t / 16`. -/
theorem idx5 : ∀ t : Fin cfg0.N, win0_5.index t (0 : Fin 3) = t.val / 16 ∧ win0_5.index t (1 : Fin 3) = 0
    ∧ win0_5.index t (2 : Fin 3) = 0 :=
  (by decide +kernel : ∀ t : Fin grid0.N, _)

/-- What a last column tile writes back is its row tile's entry. -/
theorem flushed5_eq (c : Dev nD) (t : Fin cfg0.N) (hf : (cfg0.win 5).flush t = true) :
    (dats m 0 c).flushed 5 t = ((cfg0.win 5).blk t).view.read (Elt Ideal) (countArr m c) := by
  have h15 : t.val % 16 = 15 := (flush0_5 t).mp hf
  show (cfg0.win 5).cut (grid0.coords t) ((dats m 0 c).after 5 t) = _
  rw [after0_5, (out_eq m c t h15).2]
  funext y
  show countAt m c t.val t.isLt y = countFn m c (((cfg0.win 5).blk t).view.emb y)
  rw [countAt_apply m c y t.val t.isLt]
  obtain ⟨e0, e1, e2⟩ := idx5 t
  have ea : ((((cfg0.win 5).blk t).view.emb y) 0).val = t.val / 16 := by
    show win0_5.index t (0 : Fin 3) * 1 + 1 * (y 0).val = _
    have hy : (y 0).val < 1 := (y 0).isLt
    omega
  unfold countFn
  rw [ea]
  exact congrArg (fun k => Cert.PushLoss.z32 + ∑ s ∈ Finset.range (k + 1), countOf m c (16 * (t.val / 16) + s)) h15

/-- An index is in point `t`'s block iff each coordinate is in the block's range. -/
theorem mem_blk5 (t : Fin cfg0.N) (i : S8x1x1.Idx) :
    i ∈ ((cfg0.win 5).blk t).view.set ↔ ∀ a : Fin 3, win0_5.index t a * S1x1x1.size a ≤ (i a).val ∧ (i a).val < win0_5.index t a * S1x1x1.size a + S1x1x1.size a := by
  show i ∈ ((View.whole main_v31_1).slice (win0_5.rect t)).set ↔ _
  rw [View.set_slice_whole, Rect.mem_set_unit]
  exact Iff.rfl

/-- Every entry is written back, by its row tile's last point. -/
theorem cover5 (i : S8x1x1.Idx) : ∃ t : Fin cfg0.N, (cfg0.win 5).flush t = true ∧ i ∈ ((cfg0.win 5).blk t).view.set := by
  have hN : cfg0.N = 128 := N_0
  have hi0 : (i 0).val < 8 := (i 0).isLt
  have hi1 : (i 1).val < 1 := (i 1).isLt
  have hi2 : (i 2).val < 1 := (i 2).isLt
  have hlt : 16 * (i 0).val + 15 < cfg0.N := by omega
  refine ⟨⟨16 * (i 0).val + 15, hlt⟩, (flush0_5 _).mpr (by show (16 * (i 0).val + 15) % 16 = 15; omega), ?_⟩
  rw [mem_blk5]
  obtain ⟨e0, e1, e2⟩ := idx5 ⟨16 * (i 0).val + 15, hlt⟩
  have e0' : win0_5.index ⟨16 * (i 0).val + 15, hlt⟩ (0 : Fin 3) = (i 0).val := by
    rw [e0]; show (16 * (i 0).val + 15) / 16 = _; omega
  intro a
  match a with
  | ⟨0, _⟩ => show win0_5.index _ (0 : Fin 3) * 1 ≤ (i 0).val ∧ (i 0).val < win0_5.index _ (0 : Fin 3) * 1 + 1; omega
  | ⟨1, _⟩ => show win0_5.index _ (1 : Fin 3) * 1 ≤ (i 1).val ∧ (i 1).val < win0_5.index _ (1 : Fin 3) * 1 + 1; omega
  | ⟨2, _⟩ => show win0_5.index _ (2 : Fin 3) * 1 ≤ (i 2).val ∧ (i 2).val < win0_5.index _ (2 : Fin 3) * 1 + 1; omega

/-- So the array ends at those entries. -/
theorem final5 (c : Dev nD) : (dats m 0 c).arrAt 5 cfg0.N = countArr m c :=
  (dats m 0 c).arrAt_eq_of_cover 5 (countArr m c) (flushed5_eq m c) (cover5)

end Cert.KernelIdeal.Tile

end
-- ==== Proof.Regroup.lean ====
/-
  Pure algebra for a 4096 × 8192 matrix cut into an 8 × 16 grid of 512 × 512 tiles, and for counting the ones of a
  one-bit matrix. (1) The total of any function over the matrix's index set is the sum, over the grid points
  n = 16·i + s, of the totals over the tiles, where local position (r, c) of tile n is global position
  (512·(n / 16) + r, 512·(n % 16) + c). (2) A sum of one-bit words, each widened to 32 bits and read as a signed integer,
  taken in the extended reals, is the number of the words equal to one. (3) The same count computed by a reduction with
  wrapping 32-bit addition from zero over the whole matrix, read as a signed integer: the count is at most
  4096 · 8192 = 2^25 < 2^31, so nothing wraps and the signed reading is the count itself.
-/
import Idealize.ShloMosaic.PureOps.Ideal.Laws
import Idealize.ShloMosaic.PureOps.Reduce
import Idealize.ShloMosaic.Lib.ValueIdx
import Idealize.ShloMosaic.Lib.IndicatorCount

open scoped BigOperators

noncomputable section

namespace Cert.PushLoss

open Idealize.ShloMosaic Idealize.ShloMosaic.ValueIdx

/-- Grid point n = 16·i + s of an 8 × 16 grid of 512 × 512 tiles of a 4096 × 8192 matrix: the global row of local row r. -/
def rowIx (n : ℕ) (r : Fin 512) : Fin 4096 := ⟨(512 * (n / 16) + r.val) % 4096, Nat.mod_lt _ (by norm_num)⟩
/-- … and the global column of local column c. -/
def colIx (n : ℕ) (c : Fin 512) : Fin 8192 := ⟨(512 * (n % 16) + c.val) % 8192, Nat.mod_lt _ (by norm_num)⟩

/-- A sum over `Fin (a * b)` is the double sum over the quotient `i` and the remainder `r` of the index `r + b * i`. -/
private theorem sum_fin_mul {M : Type*} [AddCommMonoid M] (a b : ℕ) (f : Fin (a * b) → M) :
    ∑ k, f k = ∑ i : Fin a, ∑ r : Fin b, f (finProdFinEquiv (i, r)) := by
  rw [← Equiv.sum_comp finProdFinEquiv f, Fintype.sum_prod_type]

/-- A double sum over `Fin (a * b) × Fin (c * d)` is the sum over the `a × c` grid of blocks of the sums over the
    `b × d` positions inside a block. -/
private theorem sum_grid {M : Type*} [AddCommMonoid M] (a b c d : ℕ) (f : Fin (a * b) → Fin (c * d) → M) :
    ∑ x, ∑ y, f x y
      = ∑ i : Fin a, ∑ s : Fin c, ∑ r : Fin b, ∑ t : Fin d, f (finProdFinEquiv (i, r)) (finProdFinEquiv (s, t)) := by
  rw [sum_fin_mul a b]
  refine Finset.sum_congr rfl fun i _ => ?_
  have h : ∀ r : Fin b, ∑ y, f (finProdFinEquiv (i, r)) y
      = ∑ s : Fin c, ∑ t : Fin d, f (finProdFinEquiv (i, r)) (finProdFinEquiv (s, t)) :=
    fun r => sum_fin_mul c d _
  rw [Finset.sum_congr rfl fun r _ => h r]
  exact Finset.sum_comm

/-- Row `r` of tile row `i` is global row `r + 512 · i`. -/
private theorem rowIx_eq (i : Fin 8) (s : Fin 16) (r : Fin 512) :
    rowIx (16 * i.val + s.val) r = (finProdFinEquiv (i, r) : Fin (8 * 512)) := by
  apply Fin.ext
  have hi := i.isLt; have hs := s.isLt; have hr := r.isLt
  simp only [rowIx, finProdFinEquiv_apply_val]
  omega

/-- Column `c` of tile column `s` is global column `c + 512 · s`. -/
private theorem colIx_eq (i : Fin 8) (s : Fin 16) (c : Fin 512) :
    colIx (16 * i.val + s.val) c = (finProdFinEquiv (s, c) : Fin (16 * 512)) := by
  apply Fin.ext
  have hi := i.isLt; have hs := s.isLt; have hc := c.isLt
  simp only [colIx, finProdFinEquiv_apply_val]
  omega

/-- (1) The total over the whole matrix is the sum over the tiles of the tiles' totals. -/
theorem sum_tiles {M : Type*} [AddCommMonoid M] (g : (⟨2, ![4096, 8192]⟩ : Shape).Idx → M) :
    ∑ idx, g idx = ∑ i : Fin 8, ∑ s ∈ Finset.range 16, ∑ r : Fin 512, ∑ c : Fin 512,
      g (ix2 (rowIx (16 * i.val + s) r) (colIx (16 * i.val + s) c)) := by
  rw [sum_idx2]
  refine (sum_grid 8 512 16 512 (fun (a : Fin 4096) (b : Fin 8192) => g (ix2 a b))).trans ?_
  refine Finset.sum_congr rfl fun i _ => ?_
  refine Eq.trans ?_ (Finset.sum_range (fun s => ∑ r : Fin 512, ∑ c : Fin 512,
    g (ix2 (rowIx (16 * i.val + s) r) (colIx (16 * i.val + s) c)))).symm
  refine Finset.sum_congr rfl fun s _ => Finset.sum_congr rfl fun r _ => Finset.sum_congr rfl fun c _ => ?_
  show g (ix2 (finProdFinEquiv (i, r) : Fin (8 * 512)) (finProdFinEquiv (s, c) : Fin (16 * 512)))
    = g (ix2 (rowIx (16 * i.val + s.val) r) (colIx (16 * i.val + s.val) c))
  rw [rowIx_eq i s r, colIx_eq i s c]

/-- (2) A sum of widened one-bit words read as signed integers, in the extended reals, is the number of ones. -/
theorem sum_indicator {ι : Type} (p : ι → BitVec 1) (S : Finset ι) :
    ∑ k ∈ S, ((((p k).setWidth 32).toInt : ℝ) : EReal) = (((S.filter fun k => p k = 1#1).card : ℝ) : EReal) := by
  classical
  induction S using Finset.induction_on with
  | empty => simp
  | insert a S ha ih =>
    rw [Finset.sum_insert ha, ih, Finset.filter_insert]
    by_cases h : p a = 1#1
    · rw [if_pos h, Finset.card_insert_of_notMem (fun hm => ha (Finset.mem_filter.1 hm).1), h]
      have e : ((1#1 : BitVec 1).setWidth 32).toInt = 1 := by decide
      rw [e, Nat.cast_succ, ← EReal.coe_add, add_comm, Int.cast_one]
    · rw [if_neg h, eq_zero_of_ne_one h]
      have e : ((0#1 : BitVec 1).setWidth 32).toInt = 0 := by decide
      rw [e, Int.cast_zero, EReal.coe_zero, zero_add]

/-- (3) The integer count of the ones of a 4096 × 8192 one-bit matrix, computed by a host reduce with wrapping 32-bit addition from zero and read as a signed integer, is the same number: it is at most 2^25, far below 2^31. -/
theorem hostCount (p : (⟨2, ![4096, 8192]⟩ : Shape).Idx → BitVec 1)
    (h : (⟨2, ![4096, 8192]⟩ : Shape).ReducesTo [0, 1] ⟨0, ![]⟩) (hu : 0 < (⟨0, ![]⟩ : Shape).numel) (j : (⟨0, ![]⟩ : Shape).Idx) :
    (((Host.reduce IntOp.addi (fun i => (p i).setWidth 32) (fun _ : (⟨0, ![]⟩ : Shape).Idx => (0#32 : BitVec 32)) h hu j).toInt : ℝ) : EReal)
      = (((Finset.univ.filter fun k => p k = 1#1).card : ℝ) : EReal) := by
  rw [Host.reduce_eq_fold]
  have hall : (Finset.univ.filter fun i => h.drop i = j) = Finset.univ :=
    Finset.filter_true_of_mem fun i _ => funext fun a => a.elim0
  rw [hall]
  have hfold := IndicatorCount.fold_addi_setWidth_eq_card (w := 32) p Finset.univ
  rw [hfold]
  have hc : (Finset.univ.filter fun k => p k = 1#1).card ≤ 4096 * 8192 := by
    refine (Finset.card_le_univ _).trans (le_of_eq ?_)
    rw [Fintype.card_congr (idxEquiv2 (n0 := 4096) (n1 := 8192)), Fintype.card_prod, Fintype.card_fin, Fintype.card_fin]
  have hi : (BitVec.ofNat 32 (Finset.univ.filter fun k => p k = 1#1).card).toInt
      = (((Finset.univ.filter fun k => p k = 1#1).card : ℕ) : ℤ) := by
    generalize (Finset.univ.filter fun k => p k = 1#1).card = N at hc
    unfold BitVec.toInt
    rw [BitVec.toNat_ofNat]
    omega
  rw [hi, Int.cast_natCast]

end Cert.PushLoss

end
-- ==== Proof.Totals.lean ====
/-
  The two totals.

  The loss output has one entry per row tile, each the sum of its sixteen tiles' totals; a tile's total is the sum of the
  reference's masked matrix over the tile; and the tiles partition the matrix. So the total of the loss output is the total
  of the reference's matrix. The same regrouping of the mask's 0/1 indicators gives the count output's total as the number
  of mask bits that are one.
-/
import proofs.«131508_j2422361555241_1_alg».proof.Proof.TileEntry
import proofs.«131508_j2422361555241_1_alg».proof.Proof.Outputs
import proofs.«131508_j2422361555241_1_alg».proof.Proof.Regroup

set_option maxRecDepth 16384

noncomputable section

namespace Cert.KernelIdeal.Tile

open Cert.KernelIdeal Cert.KernelIdeal.Gen
open Idealize.ShloMosaic Idealize.ShloMosaic.ValueIdx Idealize.ShloMosaic.TcCoe Idealize.SL.Sem
open Cert.PushLoss
open scoped BigOperators

variable (m : (ℓ : Loc nD τ sig) → Buf (Elt Ideal) ℓ)

/-- A sum over the entries of an [8,1,1] array whose entries are sixteen-tile sums, as the double sum over row tiles and
    column tiles. -/
theorem sum_rowTiles (f : ℕ → EReal) :
    ∑ a : S8x1x1.Idx, (z32 + ∑ s ∈ Finset.range 16, f (16 * (a 0).val + s))
      = ∑ i : Fin 8, ∑ s ∈ Finset.range 16, f (16 * i.val + s) := by
  rw [Idealize.ShloMosaic.LibTotals.sum_idx3]
  refine Finset.sum_congr rfl fun i _ => ?_
  refine (Fin.sum_univ_one _).trans ((Fin.sum_univ_one _).trans ?_)
  show z32 + ∑ s ∈ Finset.range 16, f (16 * i.val + s) = _
  rw [z32_eq, zero_add]

/-- The total of the loss output is the total of the reference's masked matrix. -/
theorem lossTotal (c : Dev nD) :
    ∑ a : S8x1x1.Idx, lossFn m c a
      = ∑ j : Cert.ReferenceIdeal.S4096x8192.Idx, Cert.ReferenceIdeal.ReadP.val_main_v44 (F := Ideal) (A0 m c) (A1 m c) (A2 m c) j := by
  refine (sum_rowTiles (lossOf m c)).trans (Eq.trans ?_ (sum_tiles (fun j => Cert.ReferenceIdeal.ReadP.val_main_v44 (F := Ideal) (A0 m c) (A1 m c) (A2 m c) j)).symm)
  refine Finset.sum_congr rfl fun i _ => Finset.sum_congr rfl fun s hs => ?_
  have hs' : s < 16 := Finset.mem_range.mp hs
  have hi := i.isLt
  exact lossOf_eq m c (16 * i.val + s) (by rw [show cfg0.N = 128 from N_0]; omega)

/-- The total of the count output is the number of the reference's mask bits that are one. -/
theorem countTotal (c : Dev nD) :
    ∑ a : S8x1x1.Idx, countFn m c a
      = (((Finset.univ.filter fun j : Cert.ReferenceIdeal.S4096x8192.Idx =>
            Cert.ReferenceIdeal.ReadP.val_main_v43 (F := Ideal) (A0 m c) (A1 m c) (A2 m c) j = 1#1).card : ℝ) : EReal) := by
  refine Eq.trans ?_ (sum_indicator (fun j => Cert.ReferenceIdeal.ReadP.val_main_v43 (F := Ideal) (A0 m c) (A1 m c) (A2 m c) j) Finset.univ)
  refine (sum_rowTiles (countOf m c)).trans (Eq.trans ?_ (sum_tiles (fun j => ((((Cert.ReferenceIdeal.ReadP.val_main_v43 (F := Ideal) (A0 m c) (A1 m c) (A2 m c) j).setWidth 32).toInt : ℝ) : EReal))).symm)
  refine Finset.sum_congr rfl fun i _ => Finset.sum_congr rfl fun s hs => ?_
  have hs' : s < 16 := Finset.mem_range.mp hs
  have hi := i.isLt
  exact countOf_eq m c (16 * i.val + s) (by rw [show cfg0.N = 128 from N_0]; omega)

end Cert.KernelIdeal.Tile

end
-- ==== Proof.LibTypedRef.lean ====
/-
  Typed references and the transports they carry.

  A typed reference pairs a buffer with the type of the tensor value it holds; contents at the value's type are moved to
  contents of the buffer and back along the equation between the two types.  The transports change nothing: going there and
  back is the identity, and a transported value equals any value of the other type that it is heterogeneously equal to.
-/
import Idealize.ShloMosaic.Lib.StableHlo.Run

noncomputable section

namespace Cert.TypedRef

open Idealize.ShloMosaic Idealize.ShloMosaic.StableHlo

variable {sig : RefSig} {Val : EltTy → Type} {T : BufTy}

/-- To the buffer's type and back is the identity. -/
theorem ofBuf_toBuf (x : TRef sig T) (v : T.Contents Val) : x.ofBuf (x.toBuf v) = v := by
  obtain ⟨r, h, h1, h2⟩ := x
  subst h
  rfl

/-- A value moved to the buffer's type is any value of that type it is heterogeneously equal to. -/
theorem toBuf_eq (x : TRef sig T) (v : T.Contents Val) (w : x.ref.ty.Contents Val) (h : HEq v w) : x.toBuf v = w :=
  eq_of_heq ((cast_heq _ v).trans h)

/-- A value moved from the buffer's type is any value of the value's type it is heterogeneously equal to. -/
theorem ofBuf_eq (x : TRef sig T) (v : x.ref.ty.Contents Val) (w : T.Contents Val) (h : HEq v w) : x.ofBuf v = w :=
  eq_of_heq ((cast_heq _ v).trans h)

end Cert.TypedRef

end
-- ==== Proof.KernelRun.lean ====
/-
  The kernel's result.

  After the region three host lines remain: the total of each of the two output arrays (a sum from zero), and the select
  "the count total is positive ? the loss total over the count total : the loss total". With the two arrays known entry
  by entry, the result is that function of their totals; and those totals are the reference's matrix total and count, so
  the result is the reference's last stage of the same argument arrays.
-/
import proofs.«131508_j2422361555241_1_alg».proof.Proof.Totals
import proofs.«131508_j2422361555241_1_alg».proof.Proof.LibTypedRef
import Idealize.ShloMosaic.Lib.StableHlo.Run

set_option maxRecDepth 16384

noncomputable section

namespace Cert.KernelIdeal.Tile

open Cert.KernelIdeal Cert.KernelIdeal.Gen
open Idealize.ShloMosaic Idealize.ShloMosaic.ValueIdx Idealize.ShloMosaic.TcCoe Idealize.SL.Sem Idealize.ShloMosaic.StableHlo
open Idealize.ShloMosaic.Pipeline (Dat)
open Cert.PushLoss
open scoped BigOperators

variable (m : (ℓ : Loc nD τ sig) → Buf (Elt Ideal) ℓ)

/-- The host lines after the region, as one function of the two output arrays. -/
def tailFn (a b : (⟨S8x1x1, .f32⟩ : BufTy).Contents (Elt Ideal)) : (⟨S_, .f32⟩ : BufTy).Contents (Elt Ideal) :=
  select (cmpf .ogt (Host.reduceAdd b (constant (F := Ideal) S_ .f32 0x00000000#32) reducesTo_S8x1x1_S_d0_1_2 h_S_) (constant (F := Ideal) S_ .f32 0x00000000#32))
    (Host.divf (Host.reduceAdd a (constant (F := Ideal) S_ .f32 0x00000000#32) reducesTo_S8x1x1_S_d0_1_2 h_S_) (Host.reduceAdd b (constant (F := Ideal) S_ .f32 0x00000000#32) reducesTo_S8x1x1_S_d0_1_2 h_S_))
    (Host.reduceAdd a (constant (F := Ideal) S_ .f32 0x00000000#32) reducesTo_S8x1x1_S_d0_1_2 h_S_)

/-- A total from zero of an [8,1,1] array is zero plus the sum of its entries. -/
theorem total_at (a : (⟨S8x1x1, .f32⟩ : BufTy).Contents (Elt Ideal)) (i : S_.Idx) :
    (Host.reduceAdd a (constant (F := Ideal) S_ .f32 0x00000000#32) reducesTo_S8x1x1_S_d0_1_2 h_S_) i = z32 + ∑ x : S8x1x1.Idx, a x := by
  simp only [Host.reduceAdd, Ideal.hostReduceAdd_def]
  exact Ideal.hostReduceAdd_total reducesTo_S8x1x1_S_d0_1_2 (fun b => b.elim0) a _ i

/-- The tail in terms of the two totals. -/
theorem tailFn_apply (a b : (⟨S8x1x1, .f32⟩ : BufTy).Contents (Elt Ideal)) (i : S_.Idx) :
    tailFn a b i = answer (z32 + ∑ x : S8x1x1.Idx, a x) (z32 + ∑ x : S8x1x1.Idx, b x) := by
  unfold tailFn answer
  show Scalar.select (Ideal.cmp .ogt ((Host.reduceAdd b (constant (F := Ideal) S_ .f32 0x00000000#32) reducesTo_S8x1x1_S_d0_1_2 h_S_) i) z32)
      (Ideal.div ((Host.reduceAdd a (constant (F := Ideal) S_ .f32 0x00000000#32) reducesTo_S8x1x1_S_d0_1_2 h_S_) i) ((Host.reduceAdd b (constant (F := Ideal) S_ .f32 0x00000000#32) reducesTo_S8x1x1_S_d0_1_2 h_S_) i)) ((Host.reduceAdd a (constant (F := Ideal) S_ .f32 0x00000000#32) reducesTo_S8x1x1_S_d0_1_2 h_S_) i) = _
  rw [total_at a i, total_at b i]

/-- The kernel's result on core c. -/
abbrev result (c : Dev nD) : Buf (Elt Ideal) ((c : Thread nD τ).loc main_v36) := tailFn (lossArr m c) (countArr m c)

/-- What the lines after the region leave in the result buffer. -/
theorem tail_eq (c : Dev nD) :
    Pipeline.afterTail₀ cfgs (dats m) 0 (V0 m) [hostOps1, hostOps1_1] c main_v36 = result m c := by
  have h4 : Pipeline.withArrays (cfgs 0).spec c (V0 m c) (fun w => (dats m 0 c).arrAt w (cfgs 0).N) (Proc.devRef .tc main_v31_0)
      = lossArr m c :=
    (Pipeline.withArrays_arr spec0 launch0.win.arr_inj c (V0 m c) (fun w => (dats m 0 c).arrAt w cfg0.N) 4).trans (final4 m c)
  have h5 : Pipeline.withArrays (cfgs 0).spec c (V0 m c) (fun w => (dats m 0 c).arrAt w (cfgs 0).N) (Proc.devRef .tc main_v31_1)
      = countArr m c :=
    (Pipeline.withArrays_arr spec0 launch0.win.arr_inj c (V0 m c) (fun w => (dats m 0 c).arrAt w cfg0.N) 5).trans (final5 m c)
  unfold Pipeline.afterTail₀
  simp only [hostOps1, hostOps1_1, List.flatten_cons, List.flatten_nil, List.append_nil, List.cons_append, List.nil_append]
  after_results
  rw [h4, h5]
  refine Cert.TypedRef.toBuf_eq _ _ _ (heq_of_eq ?_)
  show select _ _ _ = select (cmpf .ogt (Host.reduceAdd (countArr m c) (constant (F := Ideal) S_ .f32 0x00000000#32) reducesTo_S8x1x1_S_d0_1_2 h_S_) (constant (F := Ideal) S_ .f32 0x00000000#32)) (Host.divf (Host.reduceAdd (lossArr m c) (constant (F := Ideal) S_ .f32 0x00000000#32) reducesTo_S8x1x1_S_d0_1_2 h_S_) (Host.reduceAdd (countArr m c) (constant (F := Ideal) S_ .f32 0x00000000#32) reducesTo_S8x1x1_S_d0_1_2 h_S_)) (Host.reduceAdd (lossArr m c) (constant (F := Ideal) S_ .f32 0x00000000#32) reducesTo_S8x1x1_S_d0_1_2 h_S_)
  refine congr (congr (congrArg select ?_) ?_) ?_
  · exact Cert.TypedRef.ofBuf_eq _ _ _ HEq.rfl
  · exact Cert.TypedRef.ofBuf_eq _ _ _ HEq.rfl
  · exact Cert.TypedRef.ofBuf_eq _ _ _ HEq.rfl

/-- The kernel's run, read: the result buffer at `result`, the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v36) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v36 (Pipeline.mem_restRefs_of main_v36 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

/-- The result is the reference's last stage of the same argument arrays. -/
theorem result_eq (c : Dev nD) :
    result m c = Cert.ReferenceIdeal.ReadP.val_main_v51 (F := Ideal) (A0 m c) (A1 m c) (A2 m c) := by
  funext i
  refine (tailFn_apply (lossArr m c) (countArr m c) i).trans
    (Eq.trans ?_ (Cert.ReferenceIdeal.RefValue.v51_at (A0 m c) (A1 m c) (A2 m c) i).symm)
  refine congrArg₂ answer (congrArg (z32 + ·) (lossTotal m c)) ?_
  refine ((congrArg (z32 + ·) (countTotal m c)).trans ?_).trans
    (hostCount (fun k => Cert.ReferenceIdeal.ReadP.val_main_v43 (F := Ideal) (A0 m c) (A1 m c) (A2 m c) k)
      Cert.ReferenceIdeal.Gen.reducesTo_S4096x8192_S_d0_1 Cert.ReferenceIdeal.Gen.h_S_ i).symm
  rw [z32_eq, zero_add]

end Cert.KernelIdeal.Tile

end
-- ==== Proof.lean ====
/-
  The five claims.

  Both programs compute, from the same argument arrays, the mean over the entries that count of a masked softplus matrix
  (the plain total when nothing counts). The reference builds the whole 4096 × 8192 matrix and takes one total and one
  integer count; the kernel walks an 8 × 16 grid of 512 × 512 tiles, keeps a running total and a running count per row
  tile, and sums the eight row-tile results on the host. On the extended reals a total does not depend on how it is
  grouped, a sum of 0/1 indicators is the count, and the count (at most 2^25) does not wrap in 32 bits: so the results
  agree for all argument arrays — the precondition is not used by the value claim.

  The word-level kernel's and the idealized kernel's frames are the generated frame runs; the reference's frame is its run
  with the result dropped; the ideal pass rewrote nothing, so the preservation claim is trivial.
-/
import proofs.«131508_j2422361555241_1_alg».proof.Defs
import proofs.«131508_j2422361555241_1_alg».proof.Proof.Gen.Kernel
import proofs.«131508_j2422361555241_1_alg».proof.Proof.Gen.Kernel.Skeleton
import proofs.«131508_j2422361555241_1_alg».proof.Proof.Gen.Kernel.Launch
import proofs.«131508_j2422361555241_1_alg».proof.Proof.Gen.Kernel.Points
import proofs.«131508_j2422361555241_1_alg».proof.Proof.Gen.Kernel.Frame
import proofs.«131508_j2422361555241_1_alg».proof.Proof.Gen.KernelIdeal
import proofs.«131508_j2422361555241_1_alg».proof.Proof.Gen.KernelIdeal.Skeleton
import proofs.«131508_j2422361555241_1_alg».proof.Proof.Gen.KernelIdeal.Launch
import proofs.«131508_j2422361555241_1_alg».proof.Proof.Gen.KernelIdeal.Points
import proofs.«131508_j2422361555241_1_alg».proof.Proof.Gen.KernelIdeal.Frame
import proofs.«131508_j2422361555241_1_alg».proof.Proof.Gen.ReferenceIdeal
import proofs.«131508_j2422361555241_1_alg».proof.Proof.Gen.Pre_finite_inputs
import proofs.«131508_j2422361555241_1_alg».proof.Proof.RefRead
import proofs.«131508_j2422361555241_1_alg».proof.Proof.KernelRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories agreeing on the arguments both programs end at the reference's last stage of those arguments. -/
theorem algebraic : Cert.algebraic_KernelIdeal_ReferenceIdeal := by
  intro m ρ m' ρ' _ hagree
  refine ⟨fun c => Cert.KernelIdeal.Tile.result m c, Cert.KernelIdeal.Tile.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v51_eq, (hagree c).1, (hagree c).2.1, (hagree c).2.2.1]
  exact (Cert.KernelIdeal.Tile.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
